-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S2x600000 : Shape := ⟨2, ![2, 600000]⟩
abbrev S2x128 : Shape := ⟨2, ![2, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S200000x2 .f32) (main_arg1 : IVec S2x600000 32) (main_arg2 : FVec F S2x128 .f32) (main_arg3 : FVec F S128 .f32) (main_arg4 : FVec F S128x64 .f32) (main_arg5 : FVec F S64 .f32) (main_arg6 : FVec F S64x1 .f32) (main_arg7 : FVec F S1 .f32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S2x128 .f32 := Host.absf main_arg2
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S200000x2 : Shape := ⟨2, ![200000, 2]⟩
abbrev S2x600000 : Shape := ⟨2, ![2, 600000]⟩
abbrev S2x128 : Shape := ⟨2, ![2, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S200000 : Shape := ⟨1, ![200000]⟩
abbrev S800000 : Shape := ⟨1, ![800000]⟩
abbrev S_ : Shape := ⟨0, ![]⟩
abbrev S800000x1 : Shape := ⟨2, ![800000, 1]⟩
abbrev S200000x128 : Shape := ⟨2, ![200000, 128]⟩
abbrev S4000x2 : Shape := ⟨2, ![4000, 2]⟩
abbrev S4000x128 : Shape := ⟨2, ![4000, 128]⟩
abbrev S800000x128 : Shape := ⟨2, ![800000, 128]⟩
abbrev S200000x64 : Shape := ⟨2, ![200000, 64]⟩
abbrev S4000x64 : Shape := ⟨2, ![4000, 64]⟩
abbrev S1x128 : Shape := ⟨2, ![1, 128]⟩
abbrev S800000x64 : Shape := ⟨2, ![800000, 64]⟩
abbrev S200000x1 : Shape := ⟨2, ![200000, 1]⟩
abbrev S4000x1 : Shape := ⟨2, ![4000, 1]⟩
abbrev S1x64 : Shape := ⟨2, ![1, 64]⟩
abbrev S1x1 : Shape := ⟨2, ![1, 1]⟩

abbrev nBuf : Space → Nat
  | .hbm => 84
  | .vmem => 18
  | .smem => 0
  | _ => 0

abbrev bufTy : (tb : Table) → Fin (tcTables nBuf tb) → BufTy
  | .hbm, ⟨0, _⟩ => ⟨S200000x2, .f32⟩
  | .hbm, ⟨1, _⟩ => ⟨S2x600000, .i32⟩
  | .hbm, ⟨2, _⟩ => ⟨S2x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S200000, .i32⟩
  | .hbm, ⟨13, _⟩ => ⟨S800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S200000, .f32⟩
  | .hbm, ⟨19, _⟩ => ⟨S800000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S200000, .f32⟩
  | .hbm, ⟨25, _⟩ => ⟨S_, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S200000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S800000x1, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S200000x128, .f32⟩
  | .hbm, ⟨63, _⟩ => ⟨S800000x1, .i32⟩
  | .hbm, ⟨64, _⟩ => ⟨S200000x128, .f32⟩
  | .hbm, ⟨65, _⟩ => ⟨S200000x64, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .f32⟩
  | .hbm, ⟨75, _⟩ => ⟨S800000x1, .f32⟩
  | .hbm, ⟨76, _⟩ => ⟨S800000x64, .f32⟩
  | .hbm, ⟨77, _⟩ => ⟨S800000x64, .f32⟩
  | .hbm, ⟨78, _⟩ => ⟨S_, .f32⟩
  | .hbm, ⟨79, _⟩ => ⟨S200000x64, .f32⟩
  | .hbm, ⟨80, _⟩ => ⟨S800000x1, .i32⟩
  | .hbm, ⟨81, _⟩ => ⟨S200000x64, .f32⟩
  | .hbm, ⟨82, _⟩ => ⟨S200000x1, .f32⟩
  | .hbm, ⟨83, _⟩ => ⟨S200000, .f32⟩
  | .local _ .vmem, ⟨0, _⟩ => ⟨S4000x2, .f32⟩
  | .local _ .vmem, ⟨1, _⟩ => ⟨S4000x2, .f32⟩
  | .local _ .vmem, ⟨2, _⟩ => ⟨S2x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128, .f32⟩
  | .local _ .vmem, ⟨8, _⟩ => ⟨S128x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S64, .f32⟩
  | .local _ .vmem, ⟨14, _⟩ => ⟨S64x1, .f32⟩
  | .local _ .vmem, ⟨15, _⟩ => ⟨S1, .f32⟩
  | .local _ .vmem, ⟨16, _⟩ => ⟨S4000x1, .f32⟩
  | .local _ .vmem, ⟨17, _⟩ => ⟨S4000x1, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S200000_S800000_d0 : Shape.Concatenates [S600000, S200000] S800000 0
  bcast_S_S800000 : S_.BroadcastsInDim S800000 (![] : Fin 0 → Fin S800000.rank)
  bcast_S_S200000 : S_.BroadcastsInDim S200000 (![] : Fin 0 → Fin S200000.rank)
  bcast_S800000_S800000x1_0 : S800000.BroadcastsInDim S800000x1 (![0] : Fin 1 → Fin S800000x1.rank)
  inb_S4000x2_S4000x2_0_0 : ∀ a, (![0, 0] : Fin 2 → Nat) a + S4000x2.size a ≤ S4000x2.size a
  h_S4000x2 : 0 < S4000x2.numel
  inb_S2x128_S2x128_0_0 : ∀ a, (![0, 0] : Fin 2 → Nat) a + S2x128.size a ≤ S2x128.size a
  h_S2x128 : 0 < S2x128.numel
  inb_S4000x128_S4000x128_0_0 : ∀ a, (![0, 0] : Fin 2 → Nat) a + S4000x128.size a ≤ S4000x128.size a
  h_S4000x128 : 0 < S4000x128.numel
  bcast_S800000x1_S800000x128_0_1 : S800000x1.BroadcastsInDim S800000x128 (![0, 1] : Fin 2 → Fin S800000x128.rank)
  bcast_S_S200000x128 : S_.BroadcastsInDim S200000x128 (![] : Fin 0 → Fin S200000x128.rank)
  shapeCasts_S4000x128_S4000x128 : S4000x128.ShapeCasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S800000x1_S800000x64_0_1 : S800000x1.BroadcastsInDim S800000x64 (![0, 1] : Fin 2 → Fin S800000x64.rank)
  bcast_S_S200000x64 : S_.BroadcastsInDim S200000x64 (![] : Fin 0 → Fin S200000x64.rank)
  shapeCasts_S4000x64_S4000x64 : S4000x64.ShapeCasts S4000x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S200000x1_S200000 : S200000x1.ShapeCasts S200000
  scatter_S200000_S800000x1_S800000_n_0_0_1_wf : ScatterDims.WF S200000 S800000x1 S800000 [] [0] [0] 1
  gather_S200000_S800000x1_S800000_n_0_n_n_0_1_1_wf : GatherDims.WF S200000 S800000x1 S800000 [] [0] [] [0] [] 1 ![1]
  dot_S4000x2_S2x128_S4000x128_1_0_0_1_n_n_wf : DotDims.WF S4000x2 S2x128 S4000x128 [1] [0] [0] [1] [] []
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1
  dot_S4000x128_S128x64_S4000x64_1_0_0_1_n_n_wf : DotDims.WF S4000x128 S128x64 S4000x64 [1] [0] [0] [1] [] []
  gather_S200000x64_S800000x1_S800000x64_1_0_n_n_0_1_164_wf : GatherDims.WF S200000x64 S800000x1 S800000x64 [1] [0] [] [0] [] 1 ![1, 64]
  scatter_S200000x64_S800000x1_S800000x64_1_0_0_1_wf : ScatterDims.WF S200000x64 S800000x1 S800000x64 [1] [0] [0] 1
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S200000x2.size a
  hwx0_0 : ∀ i : grid0.Coords, EltTy.bits .f32 = 32 ∨ (Rect.block (s := S200000x2) S4000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S200000x64.size a
  hwx1_3 : ∀ i : grid1.Coords, EltTy.bits .f32 = 32 ∨ (Rect.block (s := S200000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1.size a ≤ S1.size a
  hwx2_3 : ∀ i : grid2.Coords, EltTy.bits .f32 = 32 ∨ (Rect.block (s := S1) S1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S200000x1.size a
  hwx2_4 : ∀ i : grid2.Coords, EltTy.bits .f32 = 32 ∨ (Rect.block (s := S200000x1) S4000x1.size (cc2_transform_4 i) (hinb2_4 i)).WholeWords (EltTy.packing .f32)

variable [Facts₀]

def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000_S800000x1_S800000_n_0_n_n_0_1_1 : GatherDims S200000 S800000x1 S800000 where
  offsetDims := []
  collapsedSliceDims := [0]
  operandBatchingDims := []
  startIndicesBatchingDims := []
  startIndexMap := [0]
  indexVectorDim := 1
  sliceSizes := ![1]
  wf := gather_S200000_S800000x1_S800000_n_0_n_n_0_1_1_wf
def dot_S4000x2_S2x128_S4000x128_1_0_0_1_n_n : DotDims S4000x2 S2x128 S4000x128 where
  lhsContracting := [1]
  rhsContracting := [0]
  lhsNonContracting := [0]
  rhsNonContracting := [1]
  lhsBatch := []
  rhsBatch := []
  wf := dot_S4000x2_S2x128_S4000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S200000x64_S800000x1_S800000x64_1_0_n_n_0_1_164 : GatherDims S200000x64 S800000x1 S800000x64 where
  offsetDims := [1]
  collapsedSliceDims := [0]
  operandBatchingDims := []
  startIndicesBatchingDims := []
  startIndexMap := [0]
  indexVectorDim := 1
  sliceSizes := ![1, 64]
  wf := gather_S200000x64_S800000x1_S800000x64_1_0_n_n_0_1_164_wf
def scatter_S200000x64_S800000x1_S800000x64_1_0_0_1 : ScatterDims S200000x64 S800000x1 S800000x64 where
  updateWindowDims := [1]
  insertedWindowDims := [0]
  scatterDimsToOperandDims := [0]
  indexVectorDim := 1
  wf := scatter_S200000x64_S800000x1_S800000x64_1_0_0_1_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S4000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S200000x2 : Shape := ⟨2, ![200000, 2]⟩
abbrev S2x600000 : Shape := ⟨2, ![2, 600000]⟩
abbrev S2x128 : Shape := ⟨2, ![2, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S200000x128 : Shape := ⟨2, ![200000, 128]⟩
abbrev S200000 : Shape := ⟨1, ![200000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S200000x64 : Shape := ⟨2, ![200000, 64]⟩
abbrev S800000x64 : Shape := ⟨2, ![800000, 64]⟩
abbrev S1x64 : Shape := ⟨2, ![1, 64]⟩
abbrev S200000x1 : Shape := ⟨2, ![200000, 1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S200000x2, .f32⟩
  | 1 => ⟨S2x600000, .i32⟩
  | 2 => ⟨S2x128, .f32⟩
  | 3 => ⟨S128, .f32⟩
  | 4 => ⟨S128x64, .f32⟩
  | 5 => ⟨S64, .f32⟩
  | 6 => ⟨S64x1, .f32⟩
  | 7 => ⟨S1, .f32⟩
  | 8 => ⟨S1x600000, .i32⟩
  | 9 => ⟨S600000, .i32⟩
  | 10 => ⟨S1x600000, .i32⟩
  | 11 => ⟨S600000, .i32⟩
  | 12 => ⟨S200000x128, .f32⟩
  | 13 => ⟨S200000, .i32⟩
  | 14 => ⟨S800000, .i32⟩
  | 15 => ⟨S800000, .i32⟩
  | 16 => ⟨S_, .f32⟩
  | 17 => ⟨S800000, .f32⟩
  | 18 => ⟨S_, .f32⟩
  | 19 => ⟨S200000, .f32⟩
  | 20 => ⟨S800000x1, .i32⟩
  | 21 => ⟨S200000, .f32⟩
  | 22 => ⟨S_, .f32⟩
  | 23 => ⟨S200000, .f32⟩
  | 24 => ⟨S200000, .i1⟩
  | 25 => ⟨S200000, .f32⟩
  | 26 => ⟨S_, .f32⟩
  | 27 => ⟨S_, .f32⟩
  | 28 => ⟨S200000, .f32⟩
  | 29 => ⟨S200000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S200000x128, .f32⟩
  | 63 => ⟨S800000x1, .i32⟩
  | 64 => ⟨S200000x128, .f32⟩
  | 65 => ⟨S1x128, .f32⟩
  | 66 => ⟨S200000x128, .f32⟩
  | 67 => ⟨S200000x128, .f32⟩
  | 68 => ⟨S_, .f32⟩
  | 69 => ⟨S200000x128, .f32⟩
  | 70 => ⟨S200000x128, .f32⟩
  | 71 => ⟨S200000x64, .f32⟩
  | 72 => ⟨S200000, .i32⟩
  | 73 => ⟨S800000, .i32⟩
  | 74 => ⟨S800000, .i32⟩
  | 75 => ⟨S_, .f32⟩
  | 76 => ⟨S800000, .f32⟩
  | 77 => ⟨S_, .f32⟩
  | 78 => ⟨S200000, .f32⟩
  | 79 => ⟨S800000x1, .i32⟩
  | 80 => ⟨S200000, .f32⟩
  | 81 => ⟨S_, .f32⟩
  | 82 => ⟨S200000, .f32⟩
  | 83 => ⟨S200000, .i1⟩
  | 84 => ⟨S200000, .f32⟩
  | 85 => ⟨S_, .f32⟩
  | 86 => ⟨S_, .f32⟩
  | 87 => ⟨S200000, .f32⟩
  | 88 => ⟨S200000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S800000, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S800000x1, .f32⟩
  | 118 => ⟨S800000x64, .f32⟩
  | 119 => ⟨S800000x64, .f32⟩
  | 120 => ⟨S_, .f32⟩
  | 121 => ⟨S200000x64, .f32⟩
  | 122 => ⟨S800000x1, .i32⟩
  | 123 => ⟨S200000x64, .f32⟩
  | 124 => ⟨S1x64, .f32⟩
  | 125 => ⟨S200000x64, .f32⟩
  | 126 => ⟨S200000x64, .f32⟩
  | 127 => ⟨S_, .f32⟩
  | _ => ⟨S200000x2, .f32⟩

abbrev hbmTy0_1 (i : Nat) : BufTy := match i % 128 with
  | 0 => ⟨S200000x64, .f32⟩
  | 1 => ⟨S200000x64, .f32⟩
  | 2 => ⟨S200000x1, .f32⟩
  | 3 => ⟨S1x1, .f32⟩
  | 4 => ⟨S200000x1, .f32⟩
  | 5 => ⟨S200000x1, .f32⟩
  | 6 => ⟨S200000x1, .f32⟩
  | 7 => ⟨S200000x1, .f32⟩
  | 8 => ⟨S_, .f32⟩
  | 9 => ⟨S200000x1, .f32⟩
  | 10 => ⟨S200000x1, .f32⟩
  | 11 => ⟨S_, .f32⟩
  | 12 => ⟨S200000x1, .f32⟩
  | 13 => ⟨S200000x1, .f32⟩
  | 14 => ⟨S200000, .f32⟩
  | _ => ⟨S200000x2, .f32⟩

abbrev hbmTy (i : Nat) : BufTy := match i / 128 with
  | 0 => hbmTy0_0 i
  | 1 => hbmTy0_1 i
  | _ => ⟨S200000x2, .f32⟩

abbrev bufTy : (tb : Table) → Fin (tcTables nBuf tb) → BufTy
  | .hbm, ⟨i, _⟩ => hbmTy i
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S200000_S800000_d0 : Shape.Concatenates [S600000, S200000] S800000 0
  bcast_S_S800000 : S_.BroadcastsInDim S800000 (![] : Fin 0 → Fin S800000.rank)
  bcast_S_S200000 : S_.BroadcastsInDim S200000 (![] : Fin 0 → Fin S200000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S800000x1_S800000x64_0_1 : S800000x1.BroadcastsInDim S800000x64 (![0, 1] : Fin 2 → Fin S800000x64.rank)
  bcast_S_S200000x64 : S_.BroadcastsInDim S200000x64 (![] : Fin 0 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  shapeCasts_S200000x1_S200000 : S200000x1.ShapeCasts S200000
  dot_S200000x2_S2x128_S200000x128_1_0_0_1_n_n_wf : DotDims.WF S200000x2 S2x128 S200000x128 [1] [0] [0] [1] [] []
  scatter_S200000_S800000x1_S800000_n_0_0_1_wf : ScatterDims.WF S200000 S800000x1 S800000 [] [0] [0] 1
  gather_S200000_S800000x1_S800000_n_0_n_n_0_1_1_wf : GatherDims.WF S200000 S800000x1 S800000 [] [0] [] [0] [] 1 ![1]
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1
  dot_S200000x128_S128x64_S200000x64_1_0_0_1_n_n_wf : DotDims.WF S200000x128 S128x64 S200000x64 [1] [0] [0] [1] [] []
  gather_S200000x64_S800000x1_S800000x64_1_0_n_n_0_1_164_wf : GatherDims.WF S200000x64 S800000x1 S800000x64 [1] [0] [] [0] [] 1 ![1, 64]
  scatter_S200000x64_S800000x1_S800000x64_1_0_0_1_wf : ScatterDims.WF S200000x64 S800000x1 S800000x64 [1] [0] [0] 1
  dot_S200000x64_S64x1_S200000x1_1_0_0_1_n_n_wf : DotDims.WF S200000x64 S64x1 S200000x1 [1] [0] [0] [1] [] []

variable [Facts₀]

def dot_S200000x2_S2x128_S200000x128_1_0_0_1_n_n : DotDims S200000x2 S2x128 S200000x128 where
  lhsContracting := [1]
  rhsContracting := [0]
  lhsNonContracting := [0]
  rhsNonContracting := [1]
  lhsBatch := []
  rhsBatch := []
  wf := dot_S200000x2_S2x128_S200000x128_1_0_0_1_n_n_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000_S800000x1_S800000_n_0_n_n_0_1_1 : GatherDims S200000 S800000x1 S800000 where
  offsetDims := []
  collapsedSliceDims := [0]
  operandBatchingDims := []
  startIndicesBatchingDims := []
  startIndexMap := [0]
  indexVectorDim := 1
  sliceSizes := ![1]
  wf := gather_S200000_S800000x1_S800000_n_0_n_n_0_1_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S200000x64_S800000x1_S800000x64_1_0_n_n_0_1_164 : GatherDims S200000x64 S800000x1 S800000x64 where
  offsetDims := [1]
  collapsedSliceDims := [0]
  operandBatchingDims := []
  startIndicesBatchingDims := []
  startIndexMap := [0]
  indexVectorDim := 1
  sliceSizes := ![1, 64]
  wf := gather_S200000x64_S800000x1_S800000x64_1_0_n_n_0_1_164_wf
def scatter_S200000x64_S800000x1_S800000x64_1_0_0_1 : ScatterDims S200000x64 S800000x1 S800000x64 where
  updateWindowDims := [1]
  insertedWindowDims := [0]
  scatterDimsToOperandDims := [0]
  indexVectorDim := 1
  wf := scatter_S200000x64_S800000x1_S800000x64_1_0_0_1_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.KernelRun.lean ====
/-
  The idealized kernel's run with its result named.

  @main is nine segments: three stretches of host operations, the first row-tiled kernel, a stretch, the second kernel, a
  stretch, the third kernel, and the final reshape. The generated frame module folds the buffers' contents through
  these segments (`W0` at launch, … , `W9` at the return) and proves, from the library's theorem for a program of several
  kernel regions, that every weakly fair execution terminates with every unscoped buffer at `W9`; it then keeps only
  the eight argument buffers. Here the same theorem is applied to the same segments and the result buffer's final
  contents `W9 … main_v59` is kept too. What `W9` holds there is read in the modules that import this one.
-/
import proofs.«171655_j62165356642602_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- Every weakly fair execution of @main terminates, nothing faulting, with the result buffer at the last boundary's
    contents and the eight argument arrays as launched. -/
theorem run_result : θ_run defs (onTc (τ := τ) (main (F := F))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Whole

end
-- ==== Proof.Graph.lean ====
/-
  The graph side of the network, as whole-array functions shared by the two programs.

  Both programs append the self loops `0 … 199999` to the 600000 edges' source and destination ids, count each node's
  in-degree by adding ones at the destination ids, take `deg^(-1/2)` where the degree is positive and `0` elsewhere, weigh
  edge `e` by the product of that value at its two ends, and propagate a node-feature matrix `Y` by gathering the source
  rows, scaling row `e` by the edge's weight and adding it into the destination row. None of this is opened in the
  certificate: the two programs apply the SAME operations to the same ids, so each step is named once here and the two
  sides are compared through these names. The dense stages between two propagations are spelt here as the host
  operations the reference applies; what they compute entry by entry is a separate module's matter.
-/
import proofs.«171655_j62165356642602_1_alg».proof.Proof.Gen.ReferenceIdeal

noncomputable section

namespace Cert.Gcn

open Cert.ReferenceIdeal Cert.ReferenceIdeal.Facts₀ Idealize.ShloMosaic Idealize.SL.Sem

variable {F : FTy → Type} [FloatOps F]

/-- An id list with the self loops appended: row `row` of the [2, 600000] edge array followed by `0 … 199999`. -/
def withLoops (row : Fin 2 → Nat) (hs : S2x600000.Slices row S1x600000) (e : (⟨S2x600000, .i32⟩ : BufTy).Contents (Elt F)) :
    (⟨S800000, .i32⟩ : BufTy).Contents (Elt F) :=
  concatenate S800000 0 [⟨S600000, shapeCast S600000 (extractStridedSlice S1x600000 row e hs) shapeCasts_S1x600000_S600000⟩,
    ⟨S200000, iotaInDim S200000 32 0⟩] concatenates_S600000_S200000_S800000_d0

/-- The source ids. -/
def srcIds (e : (⟨S2x600000, .i32⟩ : BufTy).Contents (Elt F)) : (⟨S800000, .i32⟩ : BufTy).Contents (Elt F) :=
  withLoops (F := F) ![0, 0] slices_S2x600000_S1x600000_0_0 e

/-- The destination ids. -/
def dstIds (e : (⟨S2x600000, .i32⟩ : BufTy).Contents (Elt F)) : (⟨S800000, .i32⟩ : BufTy).Contents (Elt F) :=
  withLoops (F := F) ![1, 0] slices_S2x600000_S1x600000_1_0 e

/-- An id read as a row number the way array indexing does: a negative id counts from the end. -/
def wrapIds (ids : (⟨S800000, .i32⟩ : BufTy).Contents (Elt F)) : (⟨S800000x1, .i32⟩ : BufTy).Contents (Elt F) :=
  broadcastInDim S800000x1 ![0] bcast_S800000_S800000x1_0
    (select (cmpi .slt ids (broadcastInDim S800000 ![] bcast_S_S800000 (constantI S_ 32 0#32)))
      (addi ids (broadcastInDim S800000 ![] bcast_S_S800000 (constantI S_ 32 200000#32))) ids)

/-- Each node's in-degree, self loop included: ones added at the destination ids. -/
def degree (dst : (⟨S800000, .i32⟩ : BufTy).Contents (Elt F)) : FVec F S200000 .f32 :=
  Host.scatterAdd scatter_S200000_S800000x1_S800000_n_0_0_1
    (broadcastInDim S200000 ![] bcast_S_S200000 (constant (F := F) S_ .f32 0x00000000#32))
    (broadcastInDim S800000x1 ![0] bcast_S800000_S800000x1_0 dst)
    (broadcastInDim S800000 ![] bcast_S_S800000 (constant (F := F) S_ .f32 0x3F800000#32))

/-- `deg^(-1/2)` where the degree is positive, `0` elsewhere. -/
def invSqrtDegree (dst : (⟨S800000, .i32⟩ : BufTy).Contents (Elt F)) : FVec F S200000 .f32 :=
  select (cmpf (F := F) .ogt (degree (F := F) dst) (broadcastInDim S200000 ![] bcast_S_S200000 (constant (F := F) S_ .f32 0x00000000#32)))
    (Host.rsqrt (degree (F := F) dst))
    (broadcastInDim S200000 ![] bcast_S_S200000 (constant (F := F) S_ .f32 0x00000000#32))

/-- Edge `e`'s weight: the product of `deg^(-1/2)` at its source and at its destination. -/
def edgeNorm (src dst : (⟨S800000, .i32⟩ : BufTy).Contents (Elt F)) : FVec F S800000 .f32 :=
  mulf (Host.gather gather_S200000_S800000x1_S800000_n_0_n_n_0_1_1 (invSqrtDegree (F := F) dst) (wrapIds (F := F) src))
    (Host.gather gather_S200000_S800000x1_S800000_n_0_n_n_0_1_1 (invSqrtDegree (F := F) dst) (wrapIds (F := F) dst))

/-- One propagation of a 128-column feature matrix: gather the source rows, scale row `e` by `w e`, add into the
    destination rows of a zero matrix. -/
def propagate128 (src dst : (⟨S800000, .i32⟩ : BufTy).Contents (Elt F)) (w : FVec F S800000 .f32) (y : FVec F S200000x128 .f32) :
    FVec F S200000x128 .f32 :=
  Host.scatterAdd scatter_S200000x128_S800000x1_S800000x128_1_0_0_1
    (broadcastInDim S200000x128 ![] bcast_S_S200000x128 (constant (F := F) S_ .f32 0x00000000#32))
    (broadcastInDim S800000x1 ![0] bcast_S800000_S800000x1_0 dst)
    (mulf (Host.gather gather_S200000x128_S800000x1_S800000x128_1_0_n_n_0_1_1128 y (wrapIds (F := F) src))
      (broadcastInDim S800000x128 ![0, 1] bcast_S800000x1_S800000x128_0_1 (broadcastInDim S800000x1 ![0] bcast_S800000_S800000x1_0 w)))

/-- The same for a 64-column feature matrix. -/
def propagate64 (src dst : (⟨S800000, .i32⟩ : BufTy).Contents (Elt F)) (w : FVec F S800000 .f32) (y : FVec F S200000x64 .f32) :
    FVec F S200000x64 .f32 :=
  Host.scatterAdd scatter_S200000x64_S800000x1_S800000x64_1_0_0_1
    (broadcastInDim S200000x64 ![] bcast_S_S200000x64 (constant (F := F) S_ .f32 0x00000000#32))
    (broadcastInDim S800000x1 ![0] bcast_S800000_S800000x1_0 dst)
    (mulf (Host.gather gather_S200000x64_S800000x1_S800000x64_1_0_n_n_0_1_164 y (wrapIds (F := F) src))
      (broadcastInDim S800000x64 ![0, 1] bcast_S800000x1_S800000x64_0_1 (broadcastInDim S800000x1 ![0] bcast_S800000_S800000x1_0 w)))

/-! ## The reference's dense stages, as the host operations it applies -/

/-- `X · W₁` on the host. -/
def hostLinear (x : FVec F S200000x2 .f32) (w : FVec F S2x128 .f32) : FVec F S200000x128 .f32 :=
  Host.dotGeneral dot_S200000x2_S2x128_S200000x128_1_0_0_1_n_n none x w

/-- `relu (A + b₁) · W₂` on the host. -/
def hostReluLinear (a : FVec F S200000x128 .f32) (b : FVec F S128 .f32) (w : FVec F S128x64 .f32) : FVec F S200000x64 .f32 :=
  Host.dotGeneral dot_S200000x128_S128x64_S200000x64_1_0_0_1_n_n none
    (maximumf (addf a (broadcastInDim S200000x128 ![0, 1] bcast_S1x128_S200000x128_0_1 (broadcastInDim S1x128 ![1] bcast_S128_S1x128_1 b)))
      (broadcastInDim S200000x128 ![] bcast_S_S200000x128 (constant (F := F) S_ .f32 0x00000000#32))) w

/-- `σ (relu (A + b₂) · W_p + b_p)` on the host, the logistic function spelt `1 / (1 + e⁻ᵗ)`, then the unit column dropped. -/
def hostHead (a : FVec F S200000x64 .f32) (b : FVec F S64 .f32) (w : FVec F S64x1 .f32) (bp : FVec F S1 .f32) : FVec F S200000 .f32 :=
  shapeCast S200000
    (Host.divf (broadcastInDim S200000x1 ![] bcast_S_S200000x1 (constant (F := F) S_ .f32 0x3F800000#32))
      (addf (broadcastInDim S200000x1 ![] bcast_S_S200000x1 (constant (F := F) S_ .f32 0x3F800000#32))
        (Host.exp (Host.negf (addf
          (Host.dotGeneral dot_S200000x64_S64x1_S200000x1_1_0_0_1_n_n none
            (maximumf (addf a (broadcastInDim S200000x64 ![0, 1] bcast_S1x64_S200000x64_0_1 (broadcastInDim S1x64 ![1] bcast_S64_S1x64_1 b)))
              (broadcastInDim S200000x64 ![] bcast_S_S200000x64 (constant (F := F) S_ .f32 0x00000000#32))) w)
          (broadcastInDim S200000x1 ![0, 1] bcast_S1x1_S200000x1_0_1 (broadcastInDim S1x1 ![1] bcast_S1_S1x1_1 bp)))))))
    shapeCasts_S200000x1_S200000

/-- The whole network on the host: two graph convolutions, each a dense stage then a propagation, and the head. -/
def network (x : FVec F S200000x2 .f32) (e : (⟨S2x600000, .i32⟩ : BufTy).Contents (Elt F)) (w1 : FVec F S2x128 .f32) (b1 : FVec F S128 .f32)
    (w2 : FVec F S128x64 .f32) (b2 : FVec F S64 .f32) (wp : FVec F S64x1 .f32) (bp : FVec F S1 .f32) : FVec F S200000 .f32 :=
  hostHead (F := F)
    (propagate64 (F := F) (srcIds (F := F) e) (dstIds (F := F) e) (edgeNorm (F := F) (srcIds (F := F) e) (dstIds (F := F) e))
      (hostReluLinear (F := F)
        (propagate128 (F := F) (srcIds (F := F) e) (dstIds (F := F) e) (edgeNorm (F := F) (srcIds (F := F) e) (dstIds (F := F) e)) (hostLinear (F := F) x w1))
        b1 w2))
    b2 wp bp

end Cert.Gcn

end
-- ==== Proof.LibNaryNine.lean ====
/-
  A nine-operand host operation's result with each operand read at its own buffer, and a concatenation with its pieces
  as plain arguments.

  The general statement of what an n-ary host operation leaves in its result buffer applies the operation's function to
  the family `fun k => F (xs k)` of its operands' contents. When the operands are a literal family of nine buffers,
  `xs k` under the binder is not a literal buffer, so nothing further can be said of `F (xs k)` by rewriting. Here the
  same result is stated with the family spelled out operand by operand — the contents of the first buffer, then of the
  second, … — so that each operand's contents is a closed term that can be rewritten in turn by what the earlier
  operations of the line left there. The two families agree at each of the nine indices by computation.

  A second obstacle is the concatenation itself: its well-formedness proof is typed by the list of its pieces, so a
  rewriting pass cannot change a piece inside the list. Both statements below that are meant for such a pass therefore
  keep the data OUTSIDE: the nine operands' contents are the arguments of `apply9`, and the two pieces of a two-piece
  concatenation are the arguments of `concat2`, plain function arguments that a pass rewrites freely.
-/
import Idealize.ShloMosaic.Lib.StableHlo.Run

namespace Idealize.ShloMosaic.StableHlo

open Idealize.SL.Sem

/-- A function of nine arguments applied to them: the same value as `g a0 … a8`, with the nine arguments kept outside
    `g`'s body whatever `g` does with them. -/
def apply9 {A0 A1 A2 A3 A4 A5 A6 A7 A8 B : Type} (g : A0 → A1 → A2 → A3 → A4 → A5 → A6 → A7 → A8 → B)
    (a0 : A0) (a1 : A1) (a2 : A2) (a3 : A3) (a4 : A4) (a5 : A5) (a6 : A6) (a7 : A7) (a8 : A8) : B :=
  g a0 a1 a2 a3 a4 a5 a6 a7 a8

/-- The concatenation of two pieces along axis `a`, the pieces as plain arguments (the well-formedness is of the two
    shapes only). -/
def concat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece concatenation is `concat2` of its pieces. -/
theorem concatenate_pair_eq {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ h x₁ x₂ := rfl

variable {τ : Topo} {sig : RefSig} {Val : EltTy → Type}
variable {x0 x1 x2 x3 x4 x5 x6 x7 x8 y : Ref sig .tc}

/-- What a host operation over the nine literal operands `x0 … x8` leaves in its result buffer `y`: its function of
    the nine operands' contents, each read at its own buffer. The form for rewriting at `y` itself. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl

/-- The same with the result buffer left out of the rewriting index, so that one simplification pass applies it at a
    literal buffer. -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

/-- The same with the nine operands' contents as the arguments of `apply9`: whatever the operation's function does
    with its operands (a concatenation lists them under a proof typed by the list), each operand's contents stays a
    plain argument, which a pass goes on rewriting by the earlier operations' results. -/
theorem nary9_result_args
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = apply9 (fun (a0 : (Proc.devRef (τ := τ) .tc x0).ty.Contents Val) (a1 : (Proc.devRef (τ := τ) .tc x1).ty.Contents Val) (a2 : (Proc.devRef (τ := τ) .tc x2).ty.Contents Val) (a3 : (Proc.devRef (τ := τ) .tc x3).ty.Contents Val) (a4 : (Proc.devRef (τ := τ) .tc x4).ty.Contents Val) (a5 : (Proc.devRef (τ := τ) .tc x5).ty.Contents Val) (a6 : (Proc.devRef (τ := τ) .tc x6).ty.Contents Val) (a7 : (Proc.devRef (τ := τ) .tc x7).ty.Contents Val) (a8 : (Proc.devRef (τ := τ) .tc x8).ty.Contents Val) =>
          f (Fin.cons a0 (Fin.cons a1 (Fin.cons a2 (Fin.cons a3 (Fin.cons a4 (Fin.cons a5 (Fin.cons a6 (Fin.cons a7 (Fin.cons a8 (fun i => i.elim0)))))))))))
        (F (Proc.devRef .tc x0)) (F (Proc.devRef .tc x1)) (F (Proc.devRef .tc x2)) (F (Proc.devRef .tc x3)) (F (Proc.devRef .tc x4)) (F (Proc.devRef .tc x5)) (F (Proc.devRef .tc x6)) (F (Proc.devRef .tc x7)) (F (Proc.devRef .tc x8)) :=
  nary9_result f hxs hy F

/-- `nary9_result_args` with the result buffer left out of the rewriting index: the form for one simplification pass. -/
theorem nary9_result_args'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = apply9 (fun (a0 : (Proc.devRef (τ := τ) .tc x0).ty.Contents Val) (a1 : (Proc.devRef (τ := τ) .tc x1).ty.Contents Val) (a2 : (Proc.devRef (τ := τ) .tc x2).ty.Contents Val) (a3 : (Proc.devRef (τ := τ) .tc x3).ty.Contents Val) (a4 : (Proc.devRef (τ := τ) .tc x4).ty.Contents Val) (a5 : (Proc.devRef (τ := τ) .tc x5).ty.Contents Val) (a6 : (Proc.devRef (τ := τ) .tc x6).ty.Contents Val) (a7 : (Proc.devRef (τ := τ) .tc x7).ty.Contents Val) (a8 : (Proc.devRef (τ := τ) .tc x8).ty.Contents Val) =>
          f (Fin.cons a0 (Fin.cons a1 (Fin.cons a2 (Fin.cons a3 (Fin.cons a4 (Fin.cons a5 (Fin.cons a6 (Fin.cons a7 (Fin.cons a8 (fun i => i.elim0)))))))))))
        (F (Proc.devRef .tc x0)) (F (Proc.devRef .tc x1)) (F (Proc.devRef .tc x2)) (F (Proc.devRef .tc x3)) (F (Proc.devRef .tc x4)) (F (Proc.devRef .tc x5)) (F (Proc.devRef .tc x6)) (F (Proc.devRef .tc x7)) (F (Proc.devRef .tc x8)) :=
  nary9_result f hxs hy F

/-- One simplification pass computing a buffer's contents after a literal line of host operations, as the library's
    pass does, with a nine-operand operation's operands read one by one as `apply9`'s arguments and a two-piece
    concatenation's pieces as `concat2`'s. -/
macro "after_results_simp_nine" : tactic =>
  `(tactic| (simp (disch := decide) only [after_cons, after_nil,
      nullary_result', unary_result', binary_result', ternary_result', quaternary_result', reshape_result', nary4_result', nary9_result_args',
      unaryIndexed_result', binaryIndexed_result', concatenate_pair_eq,
      nullary_result_ne', unary_result_ne', binary_result_ne', ternary_result_ne', quaternary_result_ne', reshape_result_ne',
      nary_result_ne', unaryIndexed_result_ne', binaryIndexed_result_ne']))

end Idealize.ShloMosaic.StableHlo
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.LibDenseSpec.lean ====
/-
  The three dense stages of the two-layer graph convolution network, as whole-array functions on extended reals.

  A node-feature matrix `A` of `R` rows is mapped row by row, so a stage's entry at row `r` depends on row `r`
  of its input only:
    * `linear X W`            — the product `X · W`;
    * `reluLinear A b W`      — `relu (A + b) · W`, the bias `b` added to every row;
    * `reluLinearLogistic A b W β` — `σ (relu (A + b) · W + β)`, with `σ t = 1 / (1 + e⁻ᵗ)`.
  The zero of the rectifier is kept as the all-zero 32-bit word read at the ideal values: the same word stands on both
  sides of every equation below and is never evaluated.
-/
import Idealize.ShloMosaic.PureOps.Ideal
import Idealize.ShloMosaic.Lib.ValueIdx

noncomputable section

namespace Cert.Gcn

open Idealize.ShloMosaic Idealize.ShloMosaic.ValueIdx

variable {R K N : ℕ}

/-- The matrix product: entry `(r, c)` is the sum over `k` of `X[r,k] * W[k,c]`. -/
def linear (X : FVec Ideal ⟨2, ![R, K]⟩ .f32) (W : FVec Ideal ⟨2, ![K, N]⟩ .f32) : FVec Ideal ⟨2, ![R, N]⟩ .f32 :=
  fun i => ∑ k : Fin K, X (ix2 (i 0) k) * W (ix2 k (i 1))

/-- A row bias added and the rectifier applied, entry by entry. -/
def biasRelu (A : FVec Ideal ⟨2, ![R, K]⟩ .f32) (b : FVec Ideal ⟨1, ![K]⟩ .f32) : FVec Ideal ⟨2, ![R, K]⟩ .f32 :=
  fun i => max (A i + b (ix1 (i 1))) (Ideal.ofBits .f32 0x00000000#32)

/-- `relu (A + b) · W`. -/
def reluLinear (A : FVec Ideal ⟨2, ![R, K]⟩ .f32) (b : FVec Ideal ⟨1, ![K]⟩ .f32) (W : FVec Ideal ⟨2, ![K, N]⟩ .f32) :
    FVec Ideal ⟨2, ![R, N]⟩ .f32 :=
  linear (biasRelu A b) W

/-- `σ (relu (A + b) · W + β)` for a one-column `W` and a one-entry `β`. -/
def reluLinearLogistic (A : FVec Ideal ⟨2, ![R, K]⟩ .f32) (b : FVec Ideal ⟨1, ![K]⟩ .f32) (W : FVec Ideal ⟨2, ![K, 1]⟩ .f32)
    (β : FVec Ideal ⟨1, ![1]⟩ .f32) : FVec Ideal ⟨2, ![R, 1]⟩ .f32 :=
  fun i => Ideal.logistic (reluLinear A b W i + β (ix1 (0 : Fin 1)))

theorem linear_ix2 (X : FVec Ideal ⟨2, ![R, K]⟩ .f32) (W : FVec Ideal ⟨2, ![K, N]⟩ .f32) (r : Fin R) (c : Fin N) :
    linear X W (ix2 r c) = ∑ k : Fin K, X (ix2 r k) * W (ix2 k c) := rfl

theorem biasRelu_ix2 (A : FVec Ideal ⟨2, ![R, K]⟩ .f32) (b : FVec Ideal ⟨1, ![K]⟩ .f32) (r : Fin R) (k : Fin K) :
    biasRelu A b (ix2 r k) = max (A (ix2 r k) + b (ix1 k)) (Ideal.ofBits .f32 0x00000000#32) := rfl

/-- Two inputs that agree on row `r` give the same product row. -/
theorem linear_congr_row (X X' : FVec Ideal ⟨2, ![R, K]⟩ .f32) (W : FVec Ideal ⟨2, ![K, N]⟩ .f32) (r : Fin R) (c : Fin N)
    (h : ∀ k : Fin K, X (ix2 r k) = X' (ix2 r k)) : linear X W (ix2 r c) = linear X' W (ix2 r c) := by
  rw [linear_ix2, linear_ix2]
  exact Finset.sum_congr rfl fun k _ => by rw [h k]

end Cert.Gcn

end
-- ==== Proof.Tiles0.lean ====
/-
  The first row-tiled stage: the array the first kernel leaves is `X · W₁`.

  The grid has 50 points; point `t` reads rows `4000 t … 4000 t + 3999` of the [200000, 2] input and the whole [2, 128]
  weight, multiplies them into a zero accumulator, and writes rows `4000 t … 4000 t + 3999` of the [200000, 128] output.
  Entry `(p, q)` of a tile is the sum over `k` of `tile[p,k] * W[k,q]`, which is entry `(4000 t + p, q)` of the whole
  product; the 50 tiles cover every row, so the output array is the whole product. All of it for ANY contents `V` of
  the buffers at the region's entry.
-/
import proofs.«171655_j62165356642602_1_alg».proof.Proof.Gen.KernelIdeal.Frame
import proofs.«171655_j62165356642602_1_alg».proof.Proof.LibMatmulSum
import proofs.«171655_j62165356642602_1_alg».proof.Proof.LibDenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.Gcn

variable (V : (c : Dev nD) → (b : Ref sig .tc) → Buf (Elt Ideal) ((c : Thread nD τ).loc b))

theorem zero_offsets : (![0, 0] : Fin 2 → Nat) = fun _ => 0 := funext fun a => by fin_cases a <;> rfl

/-! ## The tile's product at an entry -/

theorem dot0_lhs0 (i : S4000x128.Idx) (q : dot_S4000x2_S2x128_S4000x128_1_0_0_1_n_n.contr.Idx) :
    (dot_S4000x2_S2x128_S4000x128_1_0_0_1_n_n.lhsIdx i q 0).val = (i 0).val := by
  unfold DotDims.lhsIdx
  rw [dif_neg (show ¬(0 : Fin S4000x2.rank) ∈ dot_S4000x2_S2x128_S4000x128_1_0_0_1_n_n.lhsBatch by decide), dif_pos (show (0 : Fin S4000x2.rank) ∈ dot_S4000x2_S2x128_S4000x128_1_0_0_1_n_n.lhsNonContracting by decide)]
  rfl
theorem dot0_lhs1 (i : S4000x128.Idx) (q : dot_S4000x2_S2x128_S4000x128_1_0_0_1_n_n.contr.Idx) :
    (dot_S4000x2_S2x128_S4000x128_1_0_0_1_n_n.lhsIdx i q 1).val = (q ⟨0, by decide⟩).val :=
  dot_S4000x2_S2x128_S4000x128_1_0_0_1_n_n.lhsIdx_val_of_single rfl i q
theorem dot0_rhs0 (i : S4000x128.Idx) (q : dot_S4000x2_S2x128_S4000x128_1_0_0_1_n_n.contr.Idx) :
    (dot_S4000x2_S2x128_S4000x128_1_0_0_1_n_n.rhsIdx i q 0).val = (q ⟨0, by decide⟩).val :=
  dot_S4000x2_S2x128_S4000x128_1_0_0_1_n_n.rhsIdx_val_of_single rfl i q
theorem dot0_rhs1 (i : S4000x128.Idx) (q : dot_S4000x2_S2x128_S4000x128_1_0_0_1_n_n.contr.Idx) :
    (dot_S4000x2_S2x128_S4000x128_1_0_0_1_n_n.rhsIdx i q 1).val = (i 1).val := by
  unfold DotDims.rhsIdx
  rw [dif_neg (show ¬(1 : Fin S2x128.rank) ∈ dot_S4000x2_S2x128_S4000x128_1_0_0_1_n_n.rhsBatch by decide), dif_pos (show (1 : Fin S2x128.rank) ∈ dot_S4000x2_S2x128_S4000x128_1_0_0_1_n_n.rhsNonContracting by decide)]
  rfl

/-- What the body stores, at entry `(p, q)` of the tile: the tile's row `p` times the weight's column `q`. -/
theorem tile0_entry (x0 : FVec Ideal S4000x2 .f32) (x1 : FVec Ideal S2x128 .f32) (p : Fin 4000) (q : Fin 128) :
    k0_pay1 (F := Ideal) x0 x1 (ix2 p q) = linear x0 x1 (ix2 p q) := by
  unfold k0_pay1
  exact Cert.GraphConv.matmul_zero_sum dot_S4000x2_S2x128_S4000x128_1_0_0_1_n_n (some .fp32) rfl rfl
    dot0_lhs0 dot0_lhs1 dot0_rhs0 dot0_rhs1 x0 x1 (ix2 p q)

/-! ## The windows' blocks as rows of the arrays -/

/-- The printed index maps over the 50 points: the row windows move one tile per point, the weight's stays. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the input tile at point `t` is row `4000 t + p` of the input array. -/
theorem in_tile0 (c : Dev nD) (t : Fin cfg0.N) (p : Fin 4000) (k : Fin 2) (r : Fin 200000) (hr : r.val = t.val * 4000 + p.val) :
    (iblk0 V c 0 t : FVec Ideal S4000x2 .f32) (ix2 p k) = (V c main_arg0 : FVec Ideal S200000x2 .f32) (ix2 r k) := by
  obtain ⟨e0, e1, -, -, -, -⟩ := index_maps0 t
  unfold iblk0
  rw [View.read_apply]
  show V c main_arg0 _ = V c main_arg0 _
  refine congrArg (V c main_arg0) ?_
  funext a
  apply Fin.ext
  match a with
  | ⟨0, _⟩ => show win0_0.index t (0 : Fin 2) * 4000 + 1 * p.val = r.val; rw [e0, hr]; omega
  | ⟨1, _⟩ => show win0_0.index t (1 : Fin 2) * 2 + 1 * k.val = k.val; rw [e1]; omega

/-- The weight's tile at every point is the whole weight. -/
theorem weight_tile0 (c : Dev nD) (t : Fin cfg0.N) (k : Fin 2) (q : Fin 128) :
    (iblk0 V c 1 t : FVec Ideal S2x128 .f32) (ix2 k q) = (V c main_arg2 : FVec Ideal S2x128 .f32) (ix2 k q) := by
  obtain ⟨-, -, e2, e3, -, -⟩ := index_maps0 t
  unfold iblk0
  rw [View.read_apply]
  show V c main_arg2 _ = V c main_arg2 _
  refine congrArg (V c main_arg2) ?_
  funext a
  apply Fin.ext
  match a with
  | ⟨0, _⟩ => show win0_1.index t (0 : Fin 2) * 2 + 1 * k.val = k.val; rw [e2]; omega
  | ⟨1, _⟩ => show win0_1.index t (1 : Fin 2) * 128 + 1 * q.val = q.val; rw [e3]; omega

/-- Entry `(p, q)` of the output tile at point `t` sits at `(4000 t + p, q)` of the output array. -/
theorem out_tile0 (t : Fin cfg0.N) (p : Fin 4000) (q : Fin 128) (r : Fin 200000) (hr : r.val = t.val * 4000 + p.val) :
    (((cfg0.win 2).blk t).view.emb (ix2 p q) : S200000x128.Idx) = ix2 r q := by
  obtain ⟨-, -, -, -, e4, e5⟩ := index_maps0 t
  funext a
  apply Fin.ext
  match a with
  | ⟨0, _⟩ => show win0_2.index t (0 : Fin 2) * 4000 + 1 * p.val = r.val; rw [e4, hr]; omega
  | ⟨1, _⟩ => show win0_2.index t (1 : Fin 2) * 128 + 1 * q.val = q.val; rw [e5]; omega

/-! ## What a point writes back, the cover, the array -/

/-- What point `t` writes back is tile `t` of the whole product of the arrays as the region finds them. -/
theorem flushed0 (c : Dev nD) (t : Fin cfg0.N) :
    (dat0 V c).flushed 2 t = ((cfg0.win 2).blk t).view.read (Elt Ideal)
      (linear (V c main_arg0 : FVec Ideal S200000x2 .f32) (V c main_arg2 : FVec Ideal S2x128 .f32) : FVec Ideal S200000x128 .f32) := by
  show (cfg0.win 2).cut (grid0.coords t) ((dat0 V c).after 2 t) = _
  rw [after0_2]
  unfold out0_2
  rw [View.canon_unit_zero zero_offsets]
  simp only [View.ld_unit_zero (S := S4000x2) zero_offsets, View.ld_unit_zero (S := S2x128) zero_offsets]
  funext j
  obtain ⟨p, q, rfl⟩ : ∃ (p : Fin 4000) (q : Fin 128), j = ix2 p q := ⟨j 0, j 1, eq_ix2 j⟩
  have ht : t.val < 50 := by have h := t.isLt; have hN : cfg0.N = 50 := N_0; omega
  let r : Fin 200000 := ⟨t.val * 4000 + p.val, by have := p.isLt; omega⟩
  show k0_pay1 (F := Ideal) (iblk0 V c 0 t) (iblk0 V c 1 t) (ix2 p q)
    = linear (V c main_arg0 : FVec Ideal S200000x2 .f32) (V c main_arg2 : FVec Ideal S2x128 .f32) (((cfg0.win 2).blk t).view.emb (ix2 p q))
  refine Eq.trans ?_ (congrArg (linear (V c main_arg0 : FVec Ideal S200000x2 .f32) (V c main_arg2 : FVec Ideal S2x128 .f32) : FVec Ideal S200000x128 .f32)
    (out_tile0 t p q r rfl).symm)
  refine (tile0_entry _ _ p q).trans ?_
  rw [linear_ix2, linear_ix2]
  refine Finset.sum_congr rfl fun k _ => ?_
  rw [in_tile0 V c t p k r rfl, weight_tile0 V c t k q]

/-- Every row of the output lies in some point's tile. -/
theorem cover0 (i : S200000x128.Idx) : ∃ t : Fin cfg0.N, (cfg0.win 2).flush t = true ∧ i ∈ ((cfg0.win 2).blk t).view.set := by
  have h0 : (i 0).val < 200000 := (i 0).isLt
  have h1 : (i 1).val < 128 := (i 1).isLt
  let t : Fin cfg0.N := ⟨(i 0).val / 4000, by rw [show cfg0.N = 50 from N_0]; omega⟩
  obtain ⟨-, -, -, -, e4, e5⟩ := index_maps0 t
  have et : t.val = (i 0).val / 4000 := rfl
  refine ⟨t, flush0_2 t, ?_⟩
  show i ∈ ((View.whole main_v30).slice (win0_2.rect t)).set
  rw [View.set_slice_whole, Rect.mem_set_unit]
  intro a
  match a with
  | ⟨0, _⟩ => show win0_2.index t (0 : Fin 2) * 4000 ≤ (i 0).val ∧ (i 0).val < win0_2.index t (0 : Fin 2) * 4000 + 4000; rw [e4, et]; omega
  | ⟨1, _⟩ => show win0_2.index t (1 : Fin 2) * 128 ≤ (i 1).val ∧ (i 1).val < win0_2.index t (1 : Fin 2) * 128 + 128; rw [e5]; omega

/-- The first kernel's output array after its 50 points: the whole product of its two input arrays. -/
theorem final0 (c : Dev nD) :
    (dat0 V c).arrAt 2 cfg0.N = (linear (V c main_arg0 : FVec Ideal S200000x2 .f32) (V c main_arg2 : FVec Ideal S2x128 .f32) : FVec Ideal S200000x128 .f32) :=
  (dat0 V c).arrAt_eq_of_cover 2 _ (fun t _ => flushed0 V c t) cover0

end Cert.KernelIdeal.Tiles

end
-- ==== Proof.LibDenseOps.lean ====
/-
  The small operations of a dense stage, read at an entry, at the ideal values.

  A bias vector `b` of length `K` is added to every row of an `R × K` matrix and the rectifier applied. A kernel spells the
  row broadcast `[K] → [1, K] → [R, K]` with a shape cast and a vector broadcast and the rectifier's zero as a scalar
  splat; the host spells the broadcast with two `broadcast_in_dim`s and the zero as a broadcast constant. Either way the
  entry at `(r, k)` is `max (A[r,k] + b[k]) 0`, the `0` being the all-zero word. The same for the one-entry bias of the
  last stage. The logistic function `σ t = 1 / (1 + e⁻ᵗ)`, spelt by the host with the word `0x3F800000` for `1`, is the
  function the kernel's single operation denotes.
-/
import proofs.«171655_j62165356642602_1_alg».proof.Proof.LibDenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.ValueIdx

variable {R K : ℕ}

/-- A kernel's `relu (A + b)` at entry `(p, k)`. -/
theorem biasRelu_vector (x0 : FVec Ideal ⟨2, ![R, K]⟩ .f32) (x1 : FVec Ideal ⟨1, ![K]⟩ .f32)
    (h1 : (⟨2, ![R, K]⟩ : Shape).ShapeCasts ⟨2, ![R, K]⟩) (h2 : (⟨1, ![K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 x1 (ix2 p k) := by
  rw [biasRelu_ix2, maximumf_apply, addf_apply, broadcast_apply, shapeCast_self, broadcastTo_1b_ab_apply, shapeCast_a_1a_apply]
  rfl

/-- A length-`K` vector broadcast over the rows of an `R × K` matrix by two `broadcast_in_dim`s, at entry `(r, k)`. -/
theorem rowBroadcast_host {α : Type} (b : (⟨1, ![K]⟩ : Shape).Idx → α)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2)) (r : Fin R) (k : Fin K) :
    broadcastInDim ⟨2, ![R, K]⟩ (![0, 1] : Fin 2 → Fin 2) h2 (broadcastInDim ⟨2, ![1, K]⟩ (![1] : Fin 1 → Fin 2) h1 b) (ix2 r k) = b (ix1 k) := by
  rw [broadcastInDim_apply (![0, 1] : Fin 2 → Fin 2) h2 _ (ix2 r k) (ix2 (0 : Fin 1) k) (fun a => by
    match a with
    | ⟨0, _⟩ => rfl
    | ⟨1, _⟩ =>
      show k.val = if K = 1 then 0 else k.val
      split
      · have := k.isLt; omega
      · rfl)]
  exact broadcastInDim_apply (![1] : Fin 1 → Fin 2) h1 b (ix2 (0 : Fin 1) k) (ix1 k) (fun a => by
    match a with
    | ⟨0, _⟩ =>
      show k.val = if K = 1 then 0 else k.val
      split
      · have := k.isLt; omega
      · rfl)

/-- The host's `relu (A + b)` at entry `(r, k)`. -/
theorem biasRelu_host (a : FVec Ideal ⟨2, ![R, K]⟩ .f32) (b : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2))
    (h3 : (⟨0, ![]⟩ : Shape).BroadcastsInDim ⟨2, ![R, K]⟩ (![] : Fin 0 → Fin 2)) (r : Fin R) (k : Fin K) :
    maximumf (addf a (broadcastInDim ⟨2, ![R, K]⟩ (![0, 1] : Fin 2 → Fin 2) h2 (broadcastInDim ⟨2, ![1, K]⟩ (![1] : Fin 1 → Fin 2) h1 b)))
        (broadcastInDim ⟨2, ![R, K]⟩ (![] : Fin 0 → Fin 2) h3 (constant (F := Ideal) ⟨0, ![]⟩ .f32 0x00000000#32)) (ix2 r k)
      = biasRelu a b (ix2 r k) := by
  rw [biasRelu_ix2, maximumf_apply, addf_apply, rowBroadcast_host b h1 h2 r k,
    broadcastInDim_apply (![] : Fin 0 → Fin 2) h3 _ (ix2 r k) ix0 (fun a => a.elim0)]
  rfl

/-- A constant broadcast to an `R × K` matrix by the host, at any entry: the constant's word. -/
theorem splat_host (h3 : (⟨0, ![]⟩ : Shape).BroadcastsInDim ⟨2, ![R, K]⟩ (![] : Fin 0 → Fin 2)) (w : BitVec 32) (i : (⟨2, ![R, K]⟩ : Shape).Idx) :
    broadcastInDim ⟨2, ![R, K]⟩ (![] : Fin 0 → Fin 2) h3 (constant (F := Ideal) ⟨0, ![]⟩ .f32 w) i = Ideal.ofBits .f32 w := by
  rw [broadcastInDim_apply (![] : Fin 0 → Fin 2) h3 _ i ix0 (fun a => a.elim0)]
  rfl

/-- The word `0x3F800000` is the number one. -/
theorem one_word : Ideal.ofBits .f32 0x3F800000#32 = 1 := by
  simp [Ideal.ofBits, Ideal.ieee, -EReal.coe_mul]; norm_num

/-- The logistic function spelt `1 / (1 + e⁻ᵗ)` with the word for one. -/
theorem logistic_spelt (t : EReal) :
    Ideal.div (Ideal.ofBits .f32 0x3F800000#32) (Ideal.ofBits .f32 0x3F800000#32 + Ideal.exp (-t)) = Ideal.logistic t := by
  rw [one_word]; rfl

/-- The host's `1 / (1 + e^(-z))` at an entry where both of its ones are the word for one: the logistic function of `z`'s
    entry. -/
theorem logistic_host {S : Shape} (one₁ one₂ z : FVec Ideal S .f32) (i : S.Idx)
    (h1 : one₁ i = Ideal.ofBits .f32 0x3F800000#32) (h2 : one₂ i = Ideal.ofBits .f32 0x3F800000#32) :
    Host.divf one₁ (addf one₂ (Host.exp (Host.negf z))) i = Ideal.logistic (z i) := by
  show Ideal.div (one₁ i) (one₂ i + Ideal.exp (-(z i))) = _
  rw [h1, h2, logistic_spelt]

end Cert.Gcn

end
-- ==== Proof.Tiles1.lean ====
/-
  The second row-tiled stage: the array the second kernel leaves is `relu (A + b₁) · W₂`.

  Point `t` of the 50 reads rows `4000 t … 4000 t + 3999` of the [200000, 128] input `A`, the whole bias `b₁` and the whole
  [128, 64] weight; it adds the bias to every row, applies the rectifier, multiplies into a zero accumulator and writes
  rows `4000 t … 4000 t + 3999` of the [200000, 64] output. A tile's entry `(p, q)` is the sum over `k` of
  `max (tile[p,k] + b₁[k]) 0 * W₂[k,q]`: entry `(4000 t + p, q)` of the whole stage, which reads row `4000 t + p` of `A` only.
  The 50 tiles cover every row. All of it for ANY contents `V` of the buffers at the region's entry.
-/
import proofs.«171655_j62165356642602_1_alg».proof.Proof.Gen.KernelIdeal.Frame
import proofs.«171655_j62165356642602_1_alg».proof.Proof.LibMatmulSum
import proofs.«171655_j62165356642602_1_alg».proof.Proof.LibDenseSpec
import proofs.«171655_j62165356642602_1_alg».proof.Proof.LibDenseOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.Gcn

variable (V : (c : Dev nD) → (b : Ref sig .tc) → Buf (Elt Ideal) ((c : Thread nD τ).loc b))

theorem zero_offsets2_1 : (![0, 0] : Fin 2 → Nat) = fun _ => 0 := funext fun a => by fin_cases a <;> rfl
theorem zero_offsets1_1 : (![0] : Fin 1 → Nat) = fun _ => 0 := funext fun a => by fin_cases a <;> rfl

/-! ## The tile's stage at an entry -/

theorem dot1_lhs0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem dot1_lhs1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem dot1_rhs0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem dot1_rhs1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- What the body stores, at entry `(p, q)` of the tile: the stage applied to the tile. -/
theorem tile1_entry (x0 : FVec Ideal S4000x128 .f32) (x1 : FVec Ideal S128 .f32) (x2 : FVec Ideal S128x64 .f32) (p : Fin 4000) (q : Fin 64) :
    k1_pay1 (F := Ideal) x0 x1 x2 (ix2 p q) = reluLinear x0 x1 x2 (ix2 p q) := by
  unfold k1_pay1
  refine (Cert.GraphConv.matmul_zero_sum dot_S4000x128_S128x64_S4000x64_1_0_0_1_n_n (some .fp32) rfl rfl
    dot1_lhs0 dot1_lhs1 dot1_rhs0 dot1_rhs1 _ x2 (ix2 p q)).trans ?_
  show _ = linear (biasRelu x0 x1) x2 (ix2 p q)
  rw [linear_ix2]
  refine Finset.sum_congr rfl fun k _ => ?_
  exact congrArg (fun t => t * x2 (ix2 k q))
    (biasRelu_vector x0 x1 shapeCasts_S4000x128_S4000x128 shapeCasts_S128_S1x128 broadcasts_S1x128_S4000x128 p k)

/-! ## The windows' blocks as rows of the arrays -/

/-- The printed index maps over the 50 points: the row windows move one tile per point, the others stay. -/
theorem index_maps1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the input tile at point `t` is row `4000 t + p` of the input array. -/
theorem in_tile1 (c : Dev nD) (t : Fin cfg1.N) (p : Fin 4000) (k : Fin 128) (r : Fin 200000) (hr : r.val = t.val * 4000 + p.val) :
    (iblk1 V c 0 t : FVec Ideal S4000x128 .f32) (ix2 p k) = (V c main_v43 : FVec Ideal S200000x128 .f32) (ix2 r k) := by
  obtain ⟨e0, e1, -, -, -, -, -⟩ := index_maps1 t
  unfold iblk1
  rw [View.read_apply]
  show V c main_v43 _ = V c main_v43 _
  refine congrArg (V c main_v43) ?_
  funext a
  apply Fin.ext
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

/-- The bias's tile at every point is the whole bias. -/
theorem bias_tile1 (c : Dev nD) (t : Fin cfg1.N) (k : Fin 128) :
    (iblk1 V c 1 t : FVec Ideal S128 .f32) (ix1 k) = (V c main_arg3 : FVec Ideal S128 .f32) (ix1 k) := by
  obtain ⟨-, -, e2, -, -, -, -⟩ := index_maps1 t
  unfold iblk1
  rw [View.read_apply]
  show V c main_arg3 _ = V c main_arg3 _
  refine congrArg (V c main_arg3) ?_
  funext a
  apply Fin.ext
  match a with
  | ⟨0, _⟩ => show win1_1.index t (0 : Fin 1) * 128 + 1 * k.val = k.val; rw [e2]; omega

/-- The weight's tile at every point is the whole weight. -/
theorem weight_tile1 (c : Dev nD) (t : Fin cfg1.N) (k : Fin 128) (q : Fin 64) :
    (iblk1 V c 2 t : FVec Ideal S128x64 .f32) (ix2 k q) = (V c main_arg4 : FVec Ideal S128x64 .f32) (ix2 k q) := by
  obtain ⟨-, -, -, e3, e4, -, -⟩ := index_maps1 t
  unfold iblk1
  rw [View.read_apply]
  show V c main_arg4 _ = V c main_arg4 _
  refine congrArg (V c main_arg4) ?_
  funext a
  apply Fin.ext
  match a with
  | ⟨0, _⟩ => show win1_2.index t (0 : Fin 2) * 128 + 1 * k.val = k.val; rw [e3]; omega
  | ⟨1, _⟩ => show win1_2.index t (1 : Fin 2) * 64 + 1 * q.val = q.val; rw [e4]; omega

/-- Entry `(p, q)` of the output tile at point `t` sits at `(4000 t + p, q)` of the output array. -/
theorem out_tile1 (t : Fin cfg1.N) (p : Fin 4000) (q : Fin 64) (r : Fin 200000) (hr : r.val = t.val * 4000 + p.val) :
    (((cfg1.win 3).blk t).view.emb (ix2 p q) : S200000x64.Idx) = ix2 r q := by
  obtain ⟨-, -, -, -, -, e5, e6⟩ := index_maps1 t
  funext a
  apply Fin.ext
  match a with
  | ⟨0, _⟩ => show win1_3.index t (0 : Fin 2) * 4000 + 1 * p.val = r.val; rw [e5, hr]; omega
  | ⟨1, _⟩ => show win1_3.index t (1 : Fin 2) * 64 + 1 * q.val = q.val; rw [e6]; omega

/-! ## What a point writes back, the cover, the array -/

/-- What point `t` writes back is tile `t` of the whole stage applied to the arrays as the region finds them. -/
theorem flushed1 (c : Dev nD) (t : Fin cfg1.N) :
    (dat1 V c).flushed 3 t = ((cfg1.win 3).blk t).view.read (Elt Ideal)
      (reluLinear (V c main_v43 : FVec Ideal S200000x128 .f32) (V c main_arg3 : FVec Ideal S128 .f32) (V c main_arg4 : FVec Ideal S128x64 .f32) : FVec Ideal S200000x64 .f32) := by
  show (cfg1.win 3).cut (grid1.coords t) ((dat1 V c).after 3 t) = _
  rw [after1_3]
  unfold out1_3
  rw [View.canon_unit_zero zero_offsets2_1]
  simp only [View.ld_unit_zero (S := S4000x128) zero_offsets2_1, View.ld_unit_zero (S := S128) zero_offsets1_1, View.ld_unit_zero (S := S128x64) zero_offsets2_1]
  funext j
  obtain ⟨p, q, rfl⟩ : ∃ (p : Fin 4000) (q : Fin 64), j = ix2 p q := ⟨j 0, j 1, eq_ix2 j⟩
  have ht : t.val < 50 := by have h := t.isLt; have hN : cfg1.N = 50 := N_1; omega
  let r : Fin 200000 := ⟨t.val * 4000 + p.val, by have := p.isLt; omega⟩
  show k1_pay1 (F := Ideal) (iblk1 V c 0 t) (iblk1 V c 1 t) (iblk1 V c 2 t) (ix2 p q)
    = reluLinear (V c main_v43 : FVec Ideal S200000x128 .f32) (V c main_arg3 : FVec Ideal S128 .f32) (V c main_arg4 : FVec Ideal S128x64 .f32) (((cfg1.win 3).blk t).view.emb (ix2 p q))
  refine Eq.trans ?_ (congrArg (reluLinear (V c main_v43 : FVec Ideal S200000x128 .f32) (V c main_arg3 : FVec Ideal S128 .f32) (V c main_arg4 : FVec Ideal S128x64 .f32) : FVec Ideal S200000x64 .f32)
    (out_tile1 t p q r rfl).symm)
  refine (tile1_entry _ _ _ p q).trans ?_
  show linear (biasRelu _ _) _ (ix2 p q) = linear (biasRelu _ _) _ (ix2 r q)
  rw [linear_ix2, linear_ix2]
  refine Finset.sum_congr rfl fun k _ => ?_
  rw [biasRelu_ix2, biasRelu_ix2, in_tile1 V c t p k r rfl, bias_tile1 V c t k, weight_tile1 V c t k q]

/-- Every row of the output lies in some point's tile. -/
theorem cover1 (i : S200000x64.Idx) : ∃ t : Fin cfg1.N, (cfg1.win 3).flush t = true ∧ i ∈ ((cfg1.win 3).blk t).view.set := by
  have h0 : (i 0).val < 200000 := (i 0).isLt
  have h1 : (i 1).val < 64 := (i 1).isLt
  let t : Fin cfg1.N := ⟨(i 0).val / 4000, by rw [show cfg1.N = 50 from N_1]; omega⟩
  obtain ⟨-, -, -, -, -, e5, e6⟩ := index_maps1 t
  have et : t.val = (i 0).val / 4000 := rfl
  refine ⟨t, flush1_3 t, ?_⟩
  show i ∈ ((View.whole main_v44).slice (win1_3.rect t)).set
  rw [View.set_slice_whole, Rect.mem_set_unit]
  intro a
  match a with
  | ⟨0, _⟩ => show win1_3.index t (0 : Fin 2) * 4000 ≤ (i 0).val ∧ (i 0).val < win1_3.index t (0 : Fin 2) * 4000 + 4000; rw [e5, et]; omega
  | ⟨1, _⟩ => show win1_3.index t (1 : Fin 2) * 64 ≤ (i 1).val ∧ (i 1).val < win1_3.index t (1 : Fin 2) * 64 + 64; rw [e6]; omega

/-- The kernel's output array after its 50 points: the whole stage applied to its input arrays. -/
theorem final1 (c : Dev nD) :
    (dat1 V c).arrAt 3 cfg1.N = (reluLinear (V c main_v43 : FVec Ideal S200000x128 .f32) (V c main_arg3 : FVec Ideal S128 .f32) (V c main_arg4 : FVec Ideal S128x64 .f32) : FVec Ideal S200000x64 .f32) :=
  (dat1 V c).arrAt_eq_of_cover 3 _ (fun t _ => flushed1 V c t) cover1

end Cert.KernelIdeal.Tiles

end
-- ==== Proof.Tiles2.lean ====
/-
  The third row-tiled stage: the array the third kernel leaves is `σ (relu (A + b₂) · W_p + b_p)`.

  Point `t` of the 50 reads rows `4000 t … 4000 t + 3999` of the [200000, 64] input `A`, the whole bias `b₂`, the whole
  [64, 1] weight and the one-entry bias `b_p`; it adds `b₂` to every row, applies the rectifier, multiplies into a zero
  accumulator, adds `b_p`, applies the logistic function and writes rows `4000 t … 4000 t + 3999` of the [200000, 1] output.
  A tile's entry `(p, 0)` is the logistic function of the sum over `k` of `max (tile[p,k] + b₂[k]) 0 * W_p[k,0]` plus `b_p`:
  entry `(4000 t + p, 0)` of the whole stage. The 50 tiles cover every row. All of it for ANY contents `V` of the buffers
  at the region's entry.
-/
import proofs.«171655_j62165356642602_1_alg».proof.Proof.Gen.KernelIdeal.Frame
import proofs.«171655_j62165356642602_1_alg».proof.Proof.LibMatmulSum
import proofs.«171655_j62165356642602_1_alg».proof.Proof.LibDenseSpec
import proofs.«171655_j62165356642602_1_alg».proof.Proof.LibDenseOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.Gcn

variable (V : (c : Dev nD) → (b : Ref sig .tc) → Buf (Elt Ideal) ((c : Thread nD τ).loc b))

theorem zero_offsets2_2 : (![0, 0] : Fin 2 → Nat) = fun _ => 0 := funext fun a => by fin_cases a <;> rfl
theorem zero_offsets1_2 : (![0] : Fin 1 → Nat) = fun _ => 0 := funext fun a => by fin_cases a <;> rfl

/-! ## The tile's stage at an entry -/

theorem dot2_lhs0 (i : S4000x1.Idx) (q : dot_S4000x64_S64x1_S4000x1_1_0_0_1_n_n.contr.Idx) :
    (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem dot2_lhs1 (i : S4000x1.Idx) (q : dot_S4000x64_S64x1_S4000x1_1_0_0_1_n_n.contr.Idx) :
    (dot_S4000x64_S64x1_S4000x1_1_0_0_1_n_n.lhsIdx i q 1).val = (q ⟨0, by decide⟩).val :=
  dot_S4000x64_S64x1_S4000x1_1_0_0_1_n_n.lhsIdx_val_of_single rfl i q
theorem dot2_rhs0 (i : S4000x1.Idx) (q : dot_S4000x64_S64x1_S4000x1_1_0_0_1_n_n.contr.Idx) :
    (dot_S4000x64_S64x1_S4000x1_1_0_0_1_n_n.rhsIdx i q 0).val = (q ⟨0, by decide⟩).val :=
  dot_S4000x64_S64x1_S4000x1_1_0_0_1_n_n.rhsIdx_val_of_single rfl i q
theorem dot2_rhs1 (i : S4000x1.Idx) (q : dot_S4000x64_S64x1_S4000x1_1_0_0_1_n_n.contr.Idx) :
    (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- What the body stores, at entry `(p, q)` of the tile: the stage applied to the tile. -/
theorem tile2_entry (x0 : FVec Ideal S4000x64 .f32) (x1 : FVec Ideal S64 .f32) (x2 : FVec Ideal S64x1 .f32) (x3 : FVec Ideal S1 .f32) (p : Fin 4000) (q : Fin 1) :
    k2_pay1 (F := Ideal) x0 x1 x2 x3 (ix2 p q) = reluLinearLogistic x0 x1 x2 x3 (ix2 p q) := by
  obtain rfl : q = 0 := Subsingleton.elim _ _
  unfold k2_pay1
  show Ideal.logistic (_ + _) = Ideal.logistic (linear (biasRelu x0 x1) x2 (ix2 p (0 : Fin 1)) + x3 (ix1 (0 : Fin 1)))
  refine congrArg Ideal.logistic (congr (congrArg HAdd.hAdd ?_) ?_)
  · refine (Cert.GraphConv.matmul_zero_sum dot_S4000x64_S64x1_S4000x1_1_0_0_1_n_n (some .fp32) rfl rfl
      dot2_lhs0 dot2_lhs1 dot2_rhs0 dot2_rhs1 _ x2 (ix2 p (0 : Fin 1))).trans ?_
    rw [linear_ix2]
    refine Finset.sum_congr rfl fun k _ => ?_
    exact congrArg (fun t => t * x2 (ix2 k (0 : Fin 1)))
      (biasRelu_vector x0 x1 shapeCasts_S4000x64_S4000x64 shapeCasts_S64_S1x64 broadcasts_S1x64_S4000x64 p k)
  · rw [broadcastTo_1b_ab_apply, shapeCast_a_1a_apply]

/-! ## The windows' blocks as rows of the arrays -/

/-- The printed index maps over the 50 points: the row windows move one tile per point, the others stay. -/
theorem index_maps2 : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- Row `p` of the input tile at point `t` is row `4000 t + p` of the input array. -/
theorem in_tile2 (c : Dev nD) (t : Fin cfg2.N) (p : Fin 4000) (k : Fin 64) (r : Fin 200000) (hr : r.val = t.val * 4000 + p.val) :
    (iblk2 V c 0 t : FVec Ideal S4000x64 .f32) (ix2 p k) = (V c main_v57 : FVec Ideal S200000x64 .f32) (ix2 r k) := by
  obtain ⟨e0, e1, -, -, -, -, -, -⟩ := index_maps2 t
  unfold iblk2
  rw [View.read_apply]
  show V c main_v57 _ = V c main_v57 _
  refine congrArg (V c main_v57) ?_
  funext a
  apply Fin.ext
  match a with
  | ⟨0, _⟩ => show win2_0.index t (0 : Fin 2) * 4000 + 1 * p.val = r.val; rw [e0, hr]; omega
  | ⟨1, _⟩ => show win2_0.index t (1 : Fin 2) * 64 + 1 * k.val = k.val; rw [e1]; omega

/-- The bias's tile at every point is the whole bias. -/
theorem bias_tile2 (c : Dev nD) (t : Fin cfg2.N) (k : Fin 64) :
    (iblk2 V c 1 t : FVec Ideal S64 .f32) (ix1 k) = (V c main_arg5 : FVec Ideal S64 .f32) (ix1 k) := by
  obtain ⟨-, -, e2, -, -, -, -, -⟩ := index_maps2 t
  unfold iblk2
  rw [View.read_apply]
  show V c main_arg5 _ = V c main_arg5 _
  refine congrArg (V c main_arg5) ?_
  funext a
  apply Fin.ext
  match a with
  | ⟨0, _⟩ => show win2_1.index t (0 : Fin 1) * 64 + 1 * k.val = k.val; rw [e2]; omega

/-- The weight's tile at every point is the whole weight. -/
theorem weight_tile2 (c : Dev nD) (t : Fin cfg2.N) (k : Fin 64) (q : Fin 1) :
    (iblk2 V c 2 t : FVec Ideal S64x1 .f32) (ix2 k q) = (V c main_arg6 : FVec Ideal S64x1 .f32) (ix2 k q) := by
  obtain ⟨-, -, -, e3, e4, -, -, -⟩ := index_maps2 t
  unfold iblk2
  rw [View.read_apply]
  show V c main_arg6 _ = V c main_arg6 _
  refine congrArg (V c main_arg6) ?_
  funext a
  apply Fin.ext
  match a with
  | ⟨0, _⟩ => show win2_2.index t (0 : Fin 2) * 64 + 1 * k.val = k.val; rw [e3]; omega
  | ⟨1, _⟩ => show win2_2.index t (1 : Fin 2) * 1 + 1 * q.val = q.val; rw [e4]; omega

/-- The one-entry bias's tile at every point is the bias. -/
theorem unit_tile2 (c : Dev nD) (t : Fin cfg2.N) (u : Fin 1) :
    (iblk2 V c 3 t : FVec Ideal S1 .f32) (ix1 u) = (V c main_arg7 : FVec Ideal S1 .f32) (ix1 u) := by
  obtain ⟨-, -, -, -, -, e5, -, -⟩ := index_maps2 t
  unfold iblk2
  rw [View.read_apply]
  show V c main_arg7 _ = V c main_arg7 _
  refine congrArg (V c main_arg7) ?_
  funext a
  apply Fin.ext
  match a with
  | ⟨0, _⟩ => show win2_3.index t (0 : Fin 1) * 1 + 1 * u.val = u.val; rw [e5]; omega

/-- Entry `(p, q)` of the output tile at point `t` sits at `(4000 t + p, q)` of the output array. -/
theorem out_tile2 (t : Fin cfg2.N) (p : Fin 4000) (q : Fin 1) (r : Fin 200000) (hr : r.val = t.val * 4000 + p.val) :
    (((cfg2.win 4).blk t).view.emb (ix2 p q) : S200000x1.Idx) = ix2 r q := by
  obtain ⟨-, -, -, -, -, -, e6, e7⟩ := index_maps2 t
  funext a
  apply Fin.ext
  match a with
  | ⟨0, _⟩ => show win2_4.index t (0 : Fin 2) * 4000 + 1 * p.val = r.val; rw [e6, hr]; omega
  | ⟨1, _⟩ => show win2_4.index t (1 : Fin 2) * 1 + 1 * q.val = q.val; rw [e7]; omega

/-! ## What a point writes back, the cover, the array -/

/-- What point `t` writes back is tile `t` of the whole stage applied to the arrays as the region finds them. -/
theorem flushed2 (c : Dev nD) (t : Fin cfg2.N) :
    (dat2 V c).flushed 4 t = ((cfg2.win 4).blk t).view.read (Elt Ideal)
      (reluLinearLogistic (V c main_v57 : FVec Ideal S200000x64 .f32) (V c main_arg5 : FVec Ideal S64 .f32) (V c main_arg6 : FVec Ideal S64x1 .f32) (V c main_arg7 : FVec Ideal S1 .f32) : FVec Ideal S200000x1 .f32) := by
  show (cfg2.win 4).cut (grid2.coords t) ((dat2 V c).after 4 t) = _
  rw [after2_4]
  unfold out2_4
  rw [View.canon_unit_zero zero_offsets2_2]
  simp only [View.ld_unit_zero (S := S4000x64) zero_offsets2_2, View.ld_unit_zero (S := S64) zero_offsets1_2, View.ld_unit_zero (S := S64x1) zero_offsets2_2, View.ld_unit_zero (S := S1) zero_offsets1_2]
  funext j
  obtain ⟨p, q, rfl⟩ : ∃ (p : Fin 4000) (q : Fin 1), j = ix2 p q := ⟨j 0, j 1, eq_ix2 j⟩
  have ht : t.val < 50 := by have h := t.isLt; have hN : cfg2.N = 50 := N_2; omega
  let r : Fin 200000 := ⟨t.val * 4000 + p.val, by have := p.isLt; omega⟩
  show k2_pay1 (F := Ideal) (iblk2 V c 0 t) (iblk2 V c 1 t) (iblk2 V c 2 t) (iblk2 V c 3 t) (ix2 p q)
    = reluLinearLogistic (V c main_v57 : FVec Ideal S200000x64 .f32) (V c main_arg5 : FVec Ideal S64 .f32) (V c main_arg6 : FVec Ideal S64x1 .f32) (V c main_arg7 : FVec Ideal S1 .f32) (((cfg2.win 4).blk t).view.emb (ix2 p q))
  refine Eq.trans ?_ (congrArg (reluLinearLogistic (V c main_v57 : FVec Ideal S200000x64 .f32) (V c main_arg5 : FVec Ideal S64 .f32) (V c main_arg6 : FVec Ideal S64x1 .f32) (V c main_arg7 : FVec Ideal S1 .f32) : FVec Ideal S200000x1 .f32)
    (out_tile2 t p q r rfl).symm)
  refine (tile2_entry _ _ _ _ p q).trans ?_
  show Ideal.logistic (linear (biasRelu _ _) _ (ix2 p q) + _) = Ideal.logistic (linear (biasRelu _ _) _ (ix2 r q) + _)
  rw [linear_ix2, linear_ix2, unit_tile2 V c t (0 : Fin 1)]
  refine congrArg Ideal.logistic (congrArg (· + (V c main_arg7 : FVec Ideal S1 .f32) (ix1 (0 : Fin 1))) ?_)
  refine Finset.sum_congr rfl fun k _ => ?_
  rw [biasRelu_ix2, biasRelu_ix2, in_tile2 V c t p k r rfl, bias_tile2 V c t k, weight_tile2 V c t k q]

/-- Every row of the output lies in some point's tile. -/
theorem cover2 (i : S200000x1.Idx) : ∃ t : Fin cfg2.N, (cfg2.win 4).flush t = true ∧ i ∈ ((cfg2.win 4).blk t).view.set := by
  have h0 : (i 0).val < 200000 := (i 0).isLt
  have h1 : (i 1).val < 1 := (i 1).isLt
  let t : Fin cfg2.N := ⟨(i 0).val / 4000, by rw [show cfg2.N = 50 from N_2]; omega⟩
  obtain ⟨-, -, -, -, -, -, e6, e7⟩ := index_maps2 t
  have et : t.val = (i 0).val / 4000 := rfl
  refine ⟨t, flush2_4 t, ?_⟩
  show i ∈ ((View.whole main_v58).slice (win2_4.rect t)).set
  rw [View.set_slice_whole, Rect.mem_set_unit]
  intro a
  match a with
  | ⟨0, _⟩ => show win2_4.index t (0 : Fin 2) * 4000 ≤ (i 0).val ∧ (i 0).val < win2_4.index t (0 : Fin 2) * 4000 + 4000; rw [e6, et]; omega
  | ⟨1, _⟩ => show win2_4.index t (1 : Fin 2) * 1 ≤ (i 1).val ∧ (i 1).val < win2_4.index t (1 : Fin 2) * 1 + 1; rw [e7]; omega

/-- The kernel's output array after its 50 points: the whole stage applied to its input arrays. -/
theorem final2 (c : Dev nD) :
    (dat2 V c).arrAt 4 cfg2.N = (reluLinearLogistic (V c main_v57 : FVec Ideal S200000x64 .f32) (V c main_arg5 : FVec Ideal S64 .f32) (V c main_arg6 : FVec Ideal S64x1 .f32) (V c main_arg7 : FVec Ideal S1 .f32) : FVec Ideal S200000x1 .f32) :=
  (dat2 V c).arrAt_eq_of_cover 4 _ (fun t _ => flushed2 V c t) cover2

end Cert.KernelIdeal.Tiles

end
-- ==== Proof.KernelStages.lean ====
/-
  What the idealized kernel's buffers hold at each boundary of @main, as functions of the eight arguments.

  The first three stretches of host operations compute, from the edge array alone, the source and destination ids with
  the self loops appended and the edge weights; no later operation or kernel writes them, so every later boundary
  finds them unchanged, and likewise the weight and bias arguments. The first kernel leaves `X · W₁` (its tiles cover
  the output); the next stretch propagates it along the edges; the second kernel leaves `relu (· + b₁) · W₂` of that;
  the next stretch propagates again; the third kernel leaves the head `σ (relu (· + b₂) · W_p + b_p)`; the last
  operation drops the unit column. Each host stretch is read in one simplification pass and compared with the
  shared names of `Graph.lean` by unfolding them: the graph operations themselves are never opened.
-/
import proofs.«171655_j62165356642602_1_alg».proof.Proof.Gen.KernelIdeal.Frame
import proofs.«171655_j62165356642602_1_alg».proof.Proof.Graph
import proofs.«171655_j62165356642602_1_alg».proof.Proof.LibNaryNine
import proofs.«171655_j62165356642602_1_alg».proof.Proof.Tiles0
import proofs.«171655_j62165356642602_1_alg».proof.Proof.Tiles1
import proofs.«171655_j62165356642602_1_alg».proof.Proof.Tiles2

set_option maxRecDepth 16384

noncomputable section

namespace Cert.KernelIdeal.Whole

open Cert.KernelIdeal Cert.KernelIdeal.Gen Cert.KernelIdeal.Tiles Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- One pass through the host stretches that follow the last kernel exit before a boundary: the boundary's contents at
    a buffer become the stretches' operations applied to the contents at that exit (or at launch). -/
macro "host_line" : tactic =>
  `(tactic| (dsimp only [W1, W2, W3, W5, W7, W9, hostOps0, hostOps0_1, hostOps0_2, hostOps1, hostOps2, hostOps3]
             after_results_simp_nine))

theorem at3_arg0 : W3 m ρ c (Proc.devRef .tc main_arg0) = (m ((c : Thread nD τ).loc main_arg0)) := by
  host_line <;> rfl

theorem at3_arg2 : W3 m ρ c (Proc.devRef .tc main_arg2) = (m ((c : Thread nD τ).loc main_arg2)) := by
  host_line <;> rfl

theorem at3_arg3 : W3 m ρ c (Proc.devRef .tc main_arg3) = (m ((c : Thread nD τ).loc main_arg3)) := by
  host_line <;> rfl

theorem at3_arg4 : W3 m ρ c (Proc.devRef .tc main_arg4) = (m ((c : Thread nD τ).loc main_arg4)) := by
  host_line <;> rfl

theorem at3_arg5 : W3 m ρ c (Proc.devRef .tc main_arg5) = (m ((c : Thread nD τ).loc main_arg5)) := by
  host_line <;> rfl

theorem at3_arg6 : W3 m ρ c (Proc.devRef .tc main_arg6) = (m ((c : Thread nD τ).loc main_arg6)) := by
  host_line <;> rfl

theorem at3_arg7 : W3 m ρ c (Proc.devRef .tc main_arg7) = (m ((c : Thread nD τ).loc main_arg7)) := by
  host_line <;> rfl

theorem at3_v5 : W3 m ρ c (Proc.devRef .tc main_v5) = (srcIds (F := Ideal) (m ((c : Thread nD τ).loc main_arg1))) := by
  host_line <;> rfl

theorem at3_v6 : W3 m ρ c (Proc.devRef .tc main_v6) = (dstIds (F := Ideal) (m ((c : Thread nD τ).loc main_arg1))) := by
  host_line <;> rfl

/-! ### The edge weights, stretch by stretch

The degree, its comparison with zero and its inverse square root are computed by the first stretch; the second (the
outlined `where`) selects between the inverse square root and zero; the third gathers the selected value at both ends of
every edge and multiplies. The second and third are read at arbitrary contents of the buffers they start from, and the
values are then put in. -/

theorem at1_v5 : W1 m ρ c (Proc.devRef .tc main_v5) = (srcIds (F := Ideal) (m ((c : Thread nD τ).loc main_arg1))) := by
  host_line <;> rfl
theorem at1_v6 : W1 m ρ c (Proc.devRef .tc main_v6) = (dstIds (F := Ideal) (m ((c : Thread nD τ).loc main_arg1))) := by
  host_line <;> rfl
theorem at1_v12 : W1 m ρ c (Proc.devRef .tc main_v12)
    = cmpf (F := Ideal) .ogt (degree (F := Ideal) (dstIds (F := Ideal) (m ((c : Thread nD τ).loc main_arg1)))) (broadcastInDim S200000 ![] bcast_S_S200000 (constant (F := Ideal) S_ .f32 0x00000000#32)) := by
  host_line <;> rfl
theorem at1_v13 : W1 m ρ c (Proc.devRef .tc main_v13) = Host.rsqrt (degree (F := Ideal) (dstIds (F := Ideal) (m ((c : Thread nD τ).loc main_arg1)))) := by
  host_line <;> rfl
theorem at1_cst_2 : W1 m ρ c (Proc.devRef .tc main_cst_2) = constant (F := Ideal) S_ .f32 0x00000000#32 := by
  host_line <;> rfl

/-- The outlined `where`, from any contents: a selection between two of the buffers it starts from, the third broadcast. -/
theorem where_line (Z : Valuation τ sig (Elt Ideal)) : after hostOps0_1 Z (Proc.devRef .tc main_v14)
    = select (Z (Proc.devRef .tc main_v12)) (Z (Proc.devRef .tc main_v13)) (broadcastInDim S200000 ![] bcast_S_S200000 (Z (Proc.devRef .tc main_cst_2))) := by
  dsimp only [hostOps0_1]
  after_results_simp_nine
  rfl

theorem at2_v14 : W2 m ρ c (Proc.devRef .tc main_v14) = invSqrtDegree (F := Ideal) (dstIds (F := Ideal) (m ((c : Thread nD τ).loc main_arg1))) := by
  refine (where_line (W1 m ρ c)).trans ?_
  rw [at1_v12, at1_v13, at1_cst_2]
  rfl
theorem at2_v5 : W2 m ρ c (Proc.devRef .tc main_v5) = (srcIds (F := Ideal) (m ((c : Thread nD τ).loc main_arg1))) :=
  (by dsimp only [W2, hostOps0_1]; after_results_simp_nine : W2 m ρ c (Proc.devRef .tc main_v5) = W1 m ρ c (Proc.devRef .tc main_v5)).trans (at1_v5 m ρ c)
theorem at2_v6 : W2 m ρ c (Proc.devRef .tc main_v6) = (dstIds (F := Ideal) (m ((c : Thread nD τ).loc main_arg1))) :=
  (by dsimp only [W2, hostOps0_1]; after_results_simp_nine : W2 m ρ c (Proc.devRef .tc main_v6) = W1 m ρ c (Proc.devRef .tc main_v6)).trans (at1_v6 m ρ c)

/-- The third stretch's product, from any contents: the selected value gathered at the wrapped source ids times the same
    gathered at the wrapped destination ids. -/
theorem weights_line (Z : Valuation τ sig (Elt Ideal)) : after hostOps0_2 Z (Proc.devRef .tc main_v29)
    = (mulf (Host.gather gather_S200000_S800000x1_S800000_n_0_n_n_0_1_1 (Z (Proc.devRef .tc main_v14) : FVec Ideal S200000 .f32) (wrapIds (F := Ideal) (Z (Proc.devRef .tc main_v5))))
        (Host.gather gather_S200000_S800000x1_S800000_n_0_n_n_0_1_1 (Z (Proc.devRef .tc main_v14) : FVec Ideal S200000 .f32) (wrapIds (F := Ideal) (Z (Proc.devRef .tc main_v6)))) : FVec Ideal S800000 .f32) := by
  dsimp only [hostOps0_2]
  after_results_simp_nine
  rfl

theorem at3_v29 : W3 m ρ c (Proc.devRef .tc main_v29) = (edgeNorm (F := Ideal) (srcIds (F := Ideal) (m ((c : Thread nD τ).loc main_arg1))) (dstIds (F := Ideal) (m ((c : Thread nD τ).loc main_arg1)))) := by
  refine (weights_line (W2 m ρ c)).trans ?_
  rw [at2_v14, at2_v5, at2_v6]
  rfl

theorem at4_arg3 : W4 m ρ c (Proc.devRef .tc main_arg3) = (m ((c : Thread nD τ).loc main_arg3)) :=
  (W4_of_ne m ρ c main_arg3 (by decide)).trans (at3_arg3 m ρ c)

theorem at4_arg4 : W4 m ρ c (Proc.devRef .tc main_arg4) = (m ((c : Thread nD τ).loc main_arg4)) :=
  (W4_of_ne m ρ c main_arg4 (by decide)).trans (at3_arg4 m ρ c)

theorem at4_arg5 : W4 m ρ c (Proc.devRef .tc main_arg5) = (m ((c : Thread nD τ).loc main_arg5)) :=
  (W4_of_ne m ρ c main_arg5 (by decide)).trans (at3_arg5 m ρ c)

theorem at4_arg6 : W4 m ρ c (Proc.devRef .tc main_arg6) = (m ((c : Thread nD τ).loc main_arg6)) :=
  (W4_of_ne m ρ c main_arg6 (by decide)).trans (at3_arg6 m ρ c)

theorem at4_arg7 : W4 m ρ c (Proc.devRef .tc main_arg7) = (m ((c : Thread nD τ).loc main_arg7)) :=
  (W4_of_ne m ρ c main_arg7 (by decide)).trans (at3_arg7 m ρ c)

theorem at4_v5 : W4 m ρ c (Proc.devRef .tc main_v5) = (srcIds (F := Ideal) (m ((c : Thread nD τ).loc main_arg1))) :=
  (W4_of_ne m ρ c main_v5 (by decide)).trans (at3_v5 m ρ c)

theorem at4_v6 : W4 m ρ c (Proc.devRef .tc main_v6) = (dstIds (F := Ideal) (m ((c : Thread nD τ).loc main_arg1))) :=
  (W4_of_ne m ρ c main_v6 (by decide)).trans (at3_v6 m ρ c)

theorem at4_v29 : W4 m ρ c (Proc.devRef .tc main_v29) = (edgeNorm (F := Ideal) (srcIds (F := Ideal) (m ((c : Thread nD τ).loc main_arg1))) (dstIds (F := Ideal) (m ((c : Thread nD τ).loc main_arg1)))) :=
  (W4_of_ne m ρ c main_v29 (by decide)).trans (at3_v29 m ρ c)

/-- The first kernel's output: `X · W₁`. -/
theorem at4_v30 : W4 m ρ c (Proc.devRef .tc main_v30) = (linear ((m ((c : Thread nD τ).loc main_arg0)) : FVec Ideal S200000x2 .f32) ((m ((c : Thread nD τ).loc main_arg2)) : FVec Ideal S2x128 .f32) : FVec Ideal S200000x128 .f32) :=
  ((W4_arr m ρ c 2).trans (final0 (V3 m ρ) c)).trans
    (congrArg₂ (linear (R := 200000) (K := 2) (N := 128)) (at3_arg0 m ρ c) (at3_arg2 m ρ c))

theorem at5_arg3 : W5 m ρ c (Proc.devRef .tc main_arg3) = (m ((c : Thread nD τ).loc main_arg3)) :=
  (by host_line <;> rfl : W5 m ρ c (Proc.devRef .tc main_arg3) = W4 m ρ c (Proc.devRef .tc main_arg3)).trans (at4_arg3 m ρ c)

theorem at5_arg4 : W5 m ρ c (Proc.devRef .tc main_arg4) = (m ((c : Thread nD τ).loc main_arg4)) :=
  (by host_line <;> rfl : W5 m ρ c (Proc.devRef .tc main_arg4) = W4 m ρ c (Proc.devRef .tc main_arg4)).trans (at4_arg4 m ρ c)

theorem at5_arg5 : W5 m ρ c (Proc.devRef .tc main_arg5) = (m ((c : Thread nD τ).loc main_arg5)) :=
  (by host_line <;> rfl : W5 m ρ c (Proc.devRef .tc main_arg5) = W4 m ρ c (Proc.devRef .tc main_arg5)).trans (at4_arg5 m ρ c)

theorem at5_arg6 : W5 m ρ c (Proc.devRef .tc main_arg6) = (m ((c : Thread nD τ).loc main_arg6)) :=
  (by host_line <;> rfl : W5 m ρ c (Proc.devRef .tc main_arg6) = W4 m ρ c (Proc.devRef .tc main_arg6)).trans (at4_arg6 m ρ c)

theorem at5_arg7 : W5 m ρ c (Proc.devRef .tc main_arg7) = (m ((c : Thread nD τ).loc main_arg7)) :=
  (by host_line <;> rfl : W5 m ρ c (Proc.devRef .tc main_arg7) = W4 m ρ c (Proc.devRef .tc main_arg7)).trans (at4_arg7 m ρ c)

theorem at5_v5 : W5 m ρ c (Proc.devRef .tc main_v5) = (srcIds (F := Ideal) (m ((c : Thread nD τ).loc main_arg1))) :=
  (by host_line <;> rfl : W5 m ρ c (Proc.devRef .tc main_v5) = W4 m ρ c (Proc.devRef .tc main_v5)).trans (at4_v5 m ρ c)

theorem at5_v6 : W5 m ρ c (Proc.devRef .tc main_v6) = (dstIds (F := Ideal) (m ((c : Thread nD τ).loc main_arg1))) :=
  (by host_line <;> rfl : W5 m ρ c (Proc.devRef .tc main_v6) = W4 m ρ c (Proc.devRef .tc main_v6)).trans (at4_v6 m ρ c)

theorem at5_v29 : W5 m ρ c (Proc.devRef .tc main_v29) = (edgeNorm (F := Ideal) (srcIds (F := Ideal) (m ((c : Thread nD τ).loc main_arg1))) (dstIds (F := Ideal) (m ((c : Thread nD τ).loc main_arg1)))) :=
  (by host_line <;> rfl : W5 m ρ c (Proc.devRef .tc main_v29) = W4 m ρ c (Proc.devRef .tc main_v29)).trans (at4_v29 m ρ c)

/-- The first propagation, as the host line spells it over the contents at the first kernel's exit. -/
theorem at5_line : W5 m ρ c (Proc.devRef .tc main_v43)
    = propagate128 (F := Ideal) (W4 m ρ c (Proc.devRef .tc main_v5)) (W4 m ρ c (Proc.devRef .tc main_v6)) (W4 m ρ c (Proc.devRef .tc main_v29)) (W4 m ρ c (Proc.devRef .tc main_v30)) := by
  host_line <;> rfl
theorem at5_v43 : W5 m ρ c (Proc.devRef .tc main_v43) = (propagate128 (F := Ideal) (srcIds (F := Ideal) (m ((c : Thread nD τ).loc main_arg1))) (dstIds (F := Ideal) (m ((c : Thread nD τ).loc main_arg1))) (edgeNorm (F := Ideal) (srcIds (F := Ideal) (m ((c : Thread nD τ).loc main_arg1))) (dstIds (F := Ideal) (m ((c : Thread nD τ).loc main_arg1)))) (linear ((m ((c : Thread nD τ).loc main_arg0)) : FVec Ideal S200000x2 .f32) ((m ((c : Thread nD τ).loc main_arg2)) : FVec Ideal S2x128 .f32) : FVec Ideal S200000x128 .f32)) := by
  rw [at5_line, at4_v5, at4_v6, at4_v29, at4_v30]

theorem at6_arg5 : W6 m ρ c (Proc.devRef .tc main_arg5) = (m ((c : Thread nD τ).loc main_arg5)) :=
  (W6_of_ne m ρ c main_arg5 (by decide)).trans (at5_arg5 m ρ c)

theorem at6_arg6 : W6 m ρ c (Proc.devRef .tc main_arg6) = (m ((c : Thread nD τ).loc main_arg6)) :=
  (W6_of_ne m ρ c main_arg6 (by decide)).trans (at5_arg6 m ρ c)

theorem at6_arg7 : W6 m ρ c (Proc.devRef .tc main_arg7) = (m ((c : Thread nD τ).loc main_arg7)) :=
  (W6_of_ne m ρ c main_arg7 (by decide)).trans (at5_arg7 m ρ c)

theorem at6_v5 : W6 m ρ c (Proc.devRef .tc main_v5) = (srcIds (F := Ideal) (m ((c : Thread nD τ).loc main_arg1))) :=
  (W6_of_ne m ρ c main_v5 (by decide)).trans (at5_v5 m ρ c)

theorem at6_v6 : W6 m ρ c (Proc.devRef .tc main_v6) = (dstIds (F := Ideal) (m ((c : Thread nD τ).loc main_arg1))) :=
  (W6_of_ne m ρ c main_v6 (by decide)).trans (at5_v6 m ρ c)

theorem at6_v29 : W6 m ρ c (Proc.devRef .tc main_v29) = (edgeNorm (F := Ideal) (srcIds (F := Ideal) (m ((c : Thread nD τ).loc main_arg1))) (dstIds (F := Ideal) (m ((c : Thread nD τ).loc main_arg1)))) :=
  (W6_of_ne m ρ c main_v29 (by decide)).trans (at5_v29 m ρ c)

/-- The second kernel's output: `relu (A + b₁) · W₂` of the first propagation. -/
theorem at6_v44 : W6 m ρ c (Proc.devRef .tc main_v44) = (reluLinear ((propagate128 (F := Ideal) (srcIds (F := Ideal) (m ((c : Thread nD τ).loc main_arg1))) (dstIds (F := Ideal) (m ((c : Thread nD τ).loc main_arg1))) (edgeNorm (F := Ideal) (srcIds (F := Ideal) (m ((c : Thread nD τ).loc main_arg1))) (dstIds (F := Ideal) (m ((c : Thread nD τ).loc main_arg1)))) (linear ((m ((c : Thread nD τ).loc main_arg0)) : FVec Ideal S200000x2 .f32) ((m ((c : Thread nD τ).loc main_arg2)) : FVec Ideal S2x128 .f32) : FVec Ideal S200000x128 .f32)) : FVec Ideal S200000x128 .f32) ((m ((c : Thread nD τ).loc main_arg3)) : FVec Ideal S128 .f32) ((m ((c : Thread nD τ).loc main_arg4)) : FVec Ideal S128x64 .f32) : FVec Ideal S200000x64 .f32) := by
  refine ((W6_arr m ρ c 3).trans (final1 (V5 m ρ) c)).trans ?_
  show reluLinear (W5 m ρ c (Proc.devRef .tc main_v43)) (W5 m ρ c (Proc.devRef .tc main_arg3)) (W5 m ρ c (Proc.devRef .tc main_arg4)) = _
  rw [at5_v43, at5_arg3, at5_arg4]

theorem at7_arg5 : W7 m ρ c (Proc.devRef .tc main_arg5) = (m ((c : Thread nD τ).loc main_arg5)) :=
  (by host_line <;> rfl : W7 m ρ c (Proc.devRef .tc main_arg5) = W6 m ρ c (Proc.devRef .tc main_arg5)).trans (at6_arg5 m ρ c)

theorem at7_arg6 : W7 m ρ c (Proc.devRef .tc main_arg6) = (m ((c : Thread nD τ).loc main_arg6)) :=
  (by host_line <;> rfl : W7 m ρ c (Proc.devRef .tc main_arg6) = W6 m ρ c (Proc.devRef .tc main_arg6)).trans (at6_arg6 m ρ c)

theorem at7_arg7 : W7 m ρ c (Proc.devRef .tc main_arg7) = (m ((c : Thread nD τ).loc main_arg7)) :=
  (by host_line <;> rfl : W7 m ρ c (Proc.devRef .tc main_arg7) = W6 m ρ c (Proc.devRef .tc main_arg7)).trans (at6_arg7 m ρ c)

/-- The second propagation, as the host line spells it over the contents at the second kernel's exit. -/
theorem at7_line : W7 m ρ c (Proc.devRef .tc main_v57)
    = propagate64 (F := Ideal) (W6 m ρ c (Proc.devRef .tc main_v5)) (W6 m ρ c (Proc.devRef .tc main_v6)) (W6 m ρ c (Proc.devRef .tc main_v29)) (W6 m ρ c (Proc.devRef .tc main_v44)) := by
  host_line <;> rfl
theorem at7_v57 : W7 m ρ c (Proc.devRef .tc main_v57) = (propagate64 (F := Ideal) (srcIds (F := Ideal) (m ((c : Thread nD τ).loc main_arg1))) (dstIds (F := Ideal) (m ((c : Thread nD τ).loc main_arg1))) (edgeNorm (F := Ideal) (srcIds (F := Ideal) (m ((c : Thread nD τ).loc main_arg1))) (dstIds (F := Ideal) (m ((c : Thread nD τ).loc main_arg1)))) (reluLinear ((propagate128 (F := Ideal) (srcIds (F := Ideal) (m ((c : Thread nD τ).loc main_arg1))) (dstIds (F := Ideal) (m ((c : Thread nD τ).loc main_arg1))) (edgeNorm (F := Ideal) (srcIds (F := Ideal) (m ((c : Thread nD τ).loc main_arg1))) (dstIds (F := Ideal) (m ((c : Thread nD τ).loc main_arg1)))) (linear ((m ((c : Thread nD τ).loc main_arg0)) : FVec Ideal S200000x2 .f32) ((m ((c : Thread nD τ).loc main_arg2)) : FVec Ideal S2x128 .f32) : FVec Ideal S200000x128 .f32)) : FVec Ideal S200000x128 .f32) ((m ((c : Thread nD τ).loc main_arg3)) : FVec Ideal S128 .f32) ((m ((c : Thread nD τ).loc main_arg4)) : FVec Ideal S128x64 .f32) : FVec Ideal S200000x64 .f32)) := by
  rw [at7_line, at6_v5, at6_v6, at6_v29, at6_v44]

/-- The third kernel's output: the head applied to the second propagation. -/
theorem at8_v58 : W8 m ρ c (Proc.devRef .tc main_v58) = (reluLinearLogistic ((propagate64 (F := Ideal) (srcIds (F := Ideal) (m ((c : Thread nD τ).loc main_arg1))) (dstIds (F := Ideal) (m ((c : Thread nD τ).loc main_arg1))) (edgeNorm (F := Ideal) (srcIds (F := Ideal) (m ((c : Thread nD τ).loc main_arg1))) (dstIds (F := Ideal) (m ((c : Thread nD τ).loc main_arg1)))) (reluLinear ((propagate128 (F := Ideal) (srcIds (F := Ideal) (m ((c : Thread nD τ).loc main_arg1))) (dstIds (F := Ideal) (m ((c : Thread nD τ).loc main_arg1))) (edgeNorm (F := Ideal) (srcIds (F := Ideal) (m ((c : Thread nD τ).loc main_arg1))) (dstIds (F := Ideal) (m ((c : Thread nD τ).loc main_arg1)))) (linear ((m ((c : Thread nD τ).loc main_arg0)) : FVec Ideal S200000x2 .f32) ((m ((c : Thread nD τ).loc main_arg2)) : FVec Ideal S2x128 .f32) : FVec Ideal S200000x128 .f32)) : FVec Ideal S200000x128 .f32) ((m ((c : Thread nD τ).loc main_arg3)) : FVec Ideal S128 .f32) ((m ((c : Thread nD τ).loc main_arg4)) : FVec Ideal S128x64 .f32) : FVec Ideal S200000x64 .f32)) : FVec Ideal S200000x64 .f32) ((m ((c : Thread nD τ).loc main_arg5)) : FVec Ideal S64 .f32) ((m ((c : Thread nD τ).loc main_arg6)) : FVec Ideal S64x1 .f32) ((m ((c : Thread nD τ).loc main_arg7)) : FVec Ideal S1 .f32) : FVec Ideal S200000x1 .f32) := by
  refine ((W8_arr m ρ c 4).trans (final2 (V7 m ρ) c)).trans ?_
  show reluLinearLogistic (W7 m ρ c (Proc.devRef .tc main_v57)) (W7 m ρ c (Proc.devRef .tc main_arg5)) (W7 m ρ c (Proc.devRef .tc main_arg6)) (W7 m ρ c (Proc.devRef .tc main_arg7)) = _
  rw [at7_v57, at7_arg5, at7_arg6, at7_arg7]

/-- The network's value of the eight arguments on core `c`, composed from the specification's dense stages and the shared
    graph operations. -/
def result : FVec Ideal S200000 .f32 :=
  shapeCast S200000 (reluLinearLogistic ((propagate64 (F := Ideal) (srcIds (F := Ideal) (m ((c : Thread nD τ).loc main_arg1))) (dstIds (F := Ideal) (m ((c : Thread nD τ).loc main_arg1))) (edgeNorm (F := Ideal) (srcIds (F := Ideal) (m ((c : Thread nD τ).loc main_arg1))) (dstIds (F := Ideal) (m ((c : Thread nD τ).loc main_arg1)))) (reluLinear ((propagate128 (F := Ideal) (srcIds (F := Ideal) (m ((c : Thread nD τ).loc main_arg1))) (dstIds (F := Ideal) (m ((c : Thread nD τ).loc main_arg1))) (edgeNorm (F := Ideal) (srcIds (F := Ideal) (m ((c : Thread nD τ).loc main_arg1))) (dstIds (F := Ideal) (m ((c : Thread nD τ).loc main_arg1)))) (linear ((m ((c : Thread nD τ).loc main_arg0)) : FVec Ideal S200000x2 .f32) ((m ((c : Thread nD τ).loc main_arg2)) : FVec Ideal S2x128 .f32) : FVec Ideal S200000x128 .f32)) : FVec Ideal S200000x128 .f32) ((m ((c : Thread nD τ).loc main_arg3)) : FVec Ideal S128 .f32) ((m ((c : Thread nD τ).loc main_arg4)) : FVec Ideal S128x64 .f32) : FVec Ideal S200000x64 .f32)) : FVec Ideal S200000x64 .f32) ((m ((c : Thread nD τ).loc main_arg5)) : FVec Ideal S64 .f32) ((m ((c : Thread nD τ).loc main_arg6)) : FVec Ideal S64x1 .f32) ((m ((c : Thread nD τ).loc main_arg7)) : FVec Ideal S1 .f32) : FVec Ideal S200000x1 .f32) shapeCasts_S200000x1_S200000

/-- The result buffer at the return: the third kernel's [200000, 1] output with its unit column dropped. -/
theorem at9_v59 : W9 m ρ c (Proc.devRef .tc main_v59) = result m c := by
  unfold result
  refine (by host_line <;> rfl : W9 m ρ c (Proc.devRef .tc main_v59) = shapeCast S200000 (W8 m ρ c (Proc.devRef .tc main_v58)) shapeCasts_S200000x1_S200000).trans ?_
  rw [at8_v58]

end Cert.KernelIdeal.Whole

end
-- ==== Proof.RefRead.lean ====
/-
  What the reference leaves in its result buffer: the network of `Graph.lean`, applied to the eight arguments.

  The reference is a straight line of 135 host operations; the contents of its result buffer after the line is the
  composition of those operations' functions, each buffer written once. Reading the line backwards from the result
  gives: the head applied to the second propagation of the second dense stage of the first propagation of the first
  dense stage, the ids, degrees and edge weights computed from the edge array (twice in the program's text, once per
  layer, by the same operations: one term). Nothing is evaluated: the composed term IS the named one, by unfolding the
  names.
-/
import proofs.«171655_j62165356642602_1_alg».proof.Proof.RefRun
import proofs.«171655_j62165356642602_1_alg».proof.Proof.Graph
import proofs.«171655_j62165356642602_1_alg».proof.Proof.LibNaryNine

noncomputable section

namespace Cert.ReferenceIdeal.Stages

open Cert.ReferenceIdeal Cert.ReferenceIdeal.Gen Cert.ReferenceIdeal.ValueP Cert.Gcn
open Idealize.ShloMosaic Idealize.ShloMosaic.TcCoe Idealize.SL.Sem Idealize.ShloMosaic.StableHlo

variable {F : FTy → Type} [FloatOps F]

set_option maxRecDepth 8192 in
set_option maxHeartbeats 54000000 in
/-- The result buffer after the reference's 135 operations holds the network's value at the launch contents of the
    eight arguments. -/
theorem result_eq (m : (ℓ : Loc nD τ sig) → Buf (Elt F) ℓ) (c : Dev nD) :
    after (ops (F := F)) (launchContents m c) (Proc.devRef .tc main_v102)
      = network (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  after_results_simp_nine
  rfl

/-- The reference's run, read: the result at the network's value, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102)
        = network (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (result_eq m c), (h c).2⟩) (Cert.ReferenceIdeal.ValueP.run (F := F) m ρ)

end Cert.ReferenceIdeal.Stages

end
-- ==== Proof.RefDense.lean ====
/-
  The reference's three dense stages are the specification's.

  Each is a host matrix product contracting the left operand's second axis with the right operand's first; at the
  ideal values its entry `(r, c)` is the sum over `k` of `left[r,k] * right[k,c]`. The left operand of the second and
  third is `relu (A + b)`, whose entry `(r, k)` is `max (A[r,k] + b[k]) 0`; the third adds its one-entry bias and applies
  `1 / (1 + e⁻ᵗ)`, the logistic function.
-/
import proofs.«171655_j62165356642602_1_alg».proof.Proof.Graph
import proofs.«171655_j62165356642602_1_alg».proof.Proof.LibDenseOps
import proofs.«171655_j62165356642602_1_alg».proof.Proof.LibMatmulSum

noncomputable section

namespace Cert.Gcn

open Cert.ReferenceIdeal Cert.ReferenceIdeal.Facts₀ Idealize.ShloMosaic Idealize.ShloMosaic.ValueIdx

/-! ## Which coordinate of each operand comes from the output index and which from the contraction index -/

theorem hdot1_lhs0 (i : S200000x128.Idx) (q : dot_S200000x2_S2x128_S200000x128_1_0_0_1_n_n.contr.Idx) :
    (dot_S200000x2_S2x128_S200000x128_1_0_0_1_n_n.lhsIdx i q 0).val = (i 0).val := by
  unfold DotDims.lhsIdx
  rw [dif_neg (show ¬(0 : Fin S200000x2.rank) ∈ dot_S200000x2_S2x128_S200000x128_1_0_0_1_n_n.lhsBatch by decide), dif_pos (show (0 : Fin S200000x2.rank) ∈ dot_S200000x2_S2x128_S200000x128_1_0_0_1_n_n.lhsNonContracting by decide)]
  rfl
theorem hdot1_lhs1 (i : S200000x128.Idx) (q : dot_S200000x2_S2x128_S200000x128_1_0_0_1_n_n.contr.Idx) :
    (dot_S200000x2_S2x128_S200000x128_1_0_0_1_n_n.lhsIdx i q 1).val = (q ⟨0, by decide⟩).val :=
  dot_S200000x2_S2x128_S200000x128_1_0_0_1_n_n.lhsIdx_val_of_single rfl i q
theorem hdot1_rhs0 (i : S200000x128.Idx) (q : dot_S200000x2_S2x128_S200000x128_1_0_0_1_n_n.contr.Idx) :
    (dot_S200000x2_S2x128_S200000x128_1_0_0_1_n_n.rhsIdx i q 0).val = (q ⟨0, by decide⟩).val :=
  dot_S200000x2_S2x128_S200000x128_1_0_0_1_n_n.rhsIdx_val_of_single rfl i q
theorem hdot1_rhs1 (i : S200000x128.Idx) (q : dot_S200000x2_S2x128_S200000x128_1_0_0_1_n_n.contr.Idx) :
    (dot_S200000x2_S2x128_S200000x128_1_0_0_1_n_n.rhsIdx i q 1).val = (i 1).val := by
  unfold DotDims.rhsIdx
  rw [dif_neg (show ¬(1 : Fin S2x128.rank) ∈ dot_S200000x2_S2x128_S200000x128_1_0_0_1_n_n.rhsBatch by decide), dif_pos (show (1 : Fin S2x128.rank) ∈ dot_S200000x2_S2x128_S200000x128_1_0_0_1_n_n.rhsNonContracting by decide)]
  rfl

theorem hdot2_lhs0 (i : S200000x64.Idx) (q : dot_S200000x128_S128x64_S200000x64_1_0_0_1_n_n.contr.Idx) :
    (dot_S200000x128_S128x64_S200000x64_1_0_0_1_n_n.lhsIdx i q 0).val = (i 0).val := by
  unfold DotDims.lhsIdx
  rw [dif_neg (show ¬(0 : Fin S200000x128.rank) ∈ dot_S200000x128_S128x64_S200000x64_1_0_0_1_n_n.lhsBatch by decide), dif_pos (show (0 : Fin S200000x128.rank) ∈ dot_S200000x128_S128x64_S200000x64_1_0_0_1_n_n.lhsNonContracting by decide)]
  rfl
theorem hdot2_lhs1 (i : S200000x64.Idx) (q : dot_S200000x128_S128x64_S200000x64_1_0_0_1_n_n.contr.Idx) :
    (dot_S200000x128_S128x64_S200000x64_1_0_0_1_n_n.lhsIdx i q 1).val = (q ⟨0, by decide⟩).val :=
  dot_S200000x128_S128x64_S200000x64_1_0_0_1_n_n.lhsIdx_val_of_single rfl i q
theorem hdot2_rhs0 (i : S200000x64.Idx) (q : dot_S200000x128_S128x64_S200000x64_1_0_0_1_n_n.contr.Idx) :
    (dot_S200000x128_S128x64_S200000x64_1_0_0_1_n_n.rhsIdx i q 0).val = (q ⟨0, by decide⟩).val :=
  dot_S200000x128_S128x64_S200000x64_1_0_0_1_n_n.rhsIdx_val_of_single rfl i q
theorem hdot2_rhs1 (i : S200000x64.Idx) (q : dot_S200000x128_S128x64_S200000x64_1_0_0_1_n_n.contr.Idx) :
    (dot_S200000x128_S128x64_S200000x64_1_0_0_1_n_n.rhsIdx i q 1).val = (i 1).val := by
  unfold DotDims.rhsIdx
  rw [dif_neg (show ¬(1 : Fin S128x64.rank) ∈ dot_S200000x128_S128x64_S200000x64_1_0_0_1_n_n.rhsBatch by decide), dif_pos (show (1 : Fin S128x64.rank) ∈ dot_S200000x128_S128x64_S200000x64_1_0_0_1_n_n.rhsNonContracting by decide)]
  rfl

theorem hdot3_lhs0 (i : S200000x1.Idx) (q : dot_S200000x64_S64x1_S200000x1_1_0_0_1_n_n.contr.Idx) :
    (dot_S200000x64_S64x1_S200000x1_1_0_0_1_n_n.lhsIdx i q 0).val = (i 0).val := by
  unfold DotDims.lhsIdx
  rw [dif_neg (show ¬(0 : Fin S200000x64.rank) ∈ dot_S200000x64_S64x1_S200000x1_1_0_0_1_n_n.lhsBatch by decide), dif_pos (show (0 : Fin S200000x64.rank) ∈ dot_S200000x64_S64x1_S200000x1_1_0_0_1_n_n.lhsNonContracting by decide)]
  rfl
theorem hdot3_lhs1 (i : S200000x1.Idx) (q : dot_S200000x64_S64x1_S200000x1_1_0_0_1_n_n.contr.Idx) :
    (dot_S200000x64_S64x1_S200000x1_1_0_0_1_n_n.lhsIdx i q 1).val = (q ⟨0, by decide⟩).val :=
  dot_S200000x64_S64x1_S200000x1_1_0_0_1_n_n.lhsIdx_val_of_single rfl i q
theorem hdot3_rhs0 (i : S200000x1.Idx) (q : dot_S200000x64_S64x1_S200000x1_1_0_0_1_n_n.contr.Idx) :
    (dot_S200000x64_S64x1_S200000x1_1_0_0_1_n_n.rhsIdx i q 0).val = (q ⟨0, by decide⟩).val :=
  dot_S200000x64_S64x1_S200000x1_1_0_0_1_n_n.rhsIdx_val_of_single rfl i q
theorem hdot3_rhs1 (i : S200000x1.Idx) (q : dot_S200000x64_S64x1_S200000x1_1_0_0_1_n_n.contr.Idx) :
    (dot_S200000x64_S64x1_S200000x1_1_0_0_1_n_n.rhsIdx i q 1).val = (i 1).val := by
  unfold DotDims.rhsIdx
  rw [dif_neg (show ¬(1 : Fin S64x1.rank) ∈ dot_S200000x64_S64x1_S200000x1_1_0_0_1_n_n.rhsBatch by decide), dif_pos (show (1 : Fin S64x1.rank) ∈ dot_S200000x64_S64x1_S200000x1_1_0_0_1_n_n.rhsNonContracting by decide)]
  rfl

/-! ## The stages -/

/-- The host's `X · W₁`. -/
theorem hostLinear_eq (x : FVec Ideal S200000x2 .f32) (w : FVec Ideal S2x128 .f32) : hostLinear (F := Ideal) x w = linear x w := by
  funext i
  unfold hostLinear
  exact Cert.GraphConv.dotGeneral_sum dot_S200000x2_S2x128_S200000x128_1_0_0_1_n_n none _ rfl rfl
    hdot1_lhs0 hdot1_lhs1 hdot1_rhs0 hdot1_rhs1 x w i

/-- The host's `relu (A + b₁) · W₂`. -/
theorem hostReluLinear_eq (a : FVec Ideal S200000x128 .f32) (b : FVec Ideal S128 .f32) (w : FVec Ideal S128x64 .f32) :
    hostReluLinear (F := Ideal) a b w = reluLinear a b w := by
  funext i
  obtain ⟨r, c, rfl⟩ : ∃ (r : Fin 200000) (c : Fin 64), i = ix2 r c := ⟨i 0, i 1, eq_ix2 i⟩
  unfold hostReluLinear
  refine (Cert.GraphConv.dotGeneral_sum dot_S200000x128_S128x64_S200000x64_1_0_0_1_n_n none _ rfl rfl
    hdot2_lhs0 hdot2_lhs1 hdot2_rhs0 hdot2_rhs1 _ w (ix2 r c)).trans ?_
  show _ = linear (biasRelu a b) w (ix2 r c)
  rw [linear_ix2]
  refine Finset.sum_congr rfl fun k _ => ?_
  exact congrArg (fun t => t * w (ix2 k c))
    (biasRelu_host a b bcast_S128_S1x128_1 bcast_S1x128_S200000x128_0_1 bcast_S_S200000x128 r k)

/-- The host's head: `σ (relu (A + b₂) · W_p + b_p)`, then the unit column dropped. -/
theorem hostHead_eq (a : FVec Ideal S200000x64 .f32) (b : FVec Ideal S64 .f32) (w : FVec Ideal S64x1 .f32) (bp : FVec Ideal S1 .f32) :
    hostHead (F := Ideal) a b w bp = shapeCast S200000 (reluLinearLogistic a b w bp : FVec Ideal S200000x1 .f32) shapeCasts_S200000x1_S200000 := by
  unfold hostHead
  refine congrArg (fun z : FVec Ideal S200000x1 .f32 => shapeCast S200000 z shapeCasts_S200000x1_S200000) ?_
  funext i
  obtain ⟨r, q, rfl⟩ : ∃ (r : Fin 200000) (q : Fin 1), i = ix2 r q := ⟨i 0, i 1, eq_ix2 i⟩
  obtain rfl : q = 0 := Subsingleton.elim _ _
  refine (logistic_host _ _ _ (ix2 r (0 : Fin 1)) (splat_host bcast_S_S200000x1 _ _) (splat_host bcast_S_S200000x1 _ _)).trans ?_
  show Ideal.logistic (_ + _) = Ideal.logistic (linear (biasRelu a b) w (ix2 r (0 : Fin 1)) + bp (ix1 (0 : Fin 1)))
  refine congrArg Ideal.logistic (congr (congrArg HAdd.hAdd ?_) ?_)
  · refine (Cert.GraphConv.dotGeneral_sum dot_S200000x64_S64x1_S200000x1_1_0_0_1_n_n none _ rfl rfl
      hdot3_lhs0 hdot3_lhs1 hdot3_rhs0 hdot3_rhs1 _ w (ix2 r (0 : Fin 1))).trans ?_
    rw [linear_ix2]
    refine Finset.sum_congr rfl fun k _ => ?_
    exact congrArg (fun t => t * w (ix2 k (0 : Fin 1)))
      (biasRelu_host a b bcast_S64_S1x64_1 bcast_S1x64_S200000x64_0_1 bcast_S_S200000x64 r k)
  · exact rowBroadcast_host bp bcast_S1_S1x1_1 bcast_S1x1_S200000x1_0_1 r (0 : Fin 1)

end Cert.Gcn

end
-- ==== Proof.Bridge.lean ====
/-
  The network as the host spells it is the network as composed from the specification's dense stages.

  `network` (Graph.lean) applies, in order: the host's `X · W₁`, a propagation, the host's `relu (· + b₁) · W₂`, a
  propagation, and the host's head. Each host dense stage is the specification's (RefDense.lean); the propagations
  and the ids and edge weights are the same terms on both sides and are left as they are.
-/
import proofs.«171655_j62165356642602_1_alg».proof.Proof.RefDense

noncomputable section

namespace Cert.Gcn

open Cert.ReferenceIdeal Cert.ReferenceIdeal.Facts₀ Idealize.ShloMosaic

theorem network_eq (x : FVec Ideal S200000x2 .f32) (e : (⟨S2x600000, .i32⟩ : BufTy).Contents (Elt Ideal)) (w1 : FVec Ideal S2x128 .f32)
    (b1 : FVec Ideal S128 .f32) (w2 : FVec Ideal S128x64 .f32) (b2 : FVec Ideal S64 .f32) (wp : FVec Ideal S64x1 .f32) (bp : FVec Ideal S1 .f32) :
    network (F := Ideal) x e w1 b1 w2 b2 wp bp
      = shapeCast S200000
          (reluLinearLogistic
            (propagate64 (F := Ideal) (srcIds (F := Ideal) e) (dstIds (F := Ideal) e) (edgeNorm (F := Ideal) (srcIds (F := Ideal) e) (dstIds (F := Ideal) e))
              (reluLinear
                (propagate128 (F := Ideal) (srcIds (F := Ideal) e) (dstIds (F := Ideal) e) (edgeNorm (F := Ideal) (srcIds (F := Ideal) e) (dstIds (F := Ideal) e))
                  (linear x w1 : FVec Ideal S200000x128 .f32))
                b1 w2 : FVec Ideal S200000x64 .f32))
            b2 wp bp : FVec Ideal S200000x1 .f32)
          shapeCasts_S200000x1_S200000 := by
  unfold network
  rw [hostHead_eq, hostReluLinear_eq, hostLinear_eq]

end Cert.Gcn

end
-- ==== Proof.lean ====
/-
  A two-layer graph convolution network with a logistic head, three row-tiled kernels against a host reference.

  Both programs compute, for 200000 nodes with 2 input features and 600000 directed edges (a self loop is appended for
  every node),
      out = σ ( relu ( Â · relu ( Â · (X · W₁) + b₁ ) · W₂ + b₂ ) · W_p + b_p ),
  where `Â` is the adjacency with self loops, each edge weighted by `deg^(-1/2)` at its two ends, and `σ t = 1 / (1 + e⁻ᵗ)`.
  The kernel's program runs the three dense stages (`X · W₁`, `relu (· + b₁) · W₂`, `σ (relu (· + b₂) · W_p + b_p)`) as
  kernels over 50 tiles of 4000 rows and the two propagations `Â · ` on the host, computing the edge weights once; the
  reference runs everything on the host and computes the edge weights once per layer, by the same operations.

  At the ideal values the two are one function of the arguments:
    * a tile of a dense stage reads only its own rows, so the 50 tiles assemble to the stage applied to the whole
      matrix (Tiles0 / Tiles1 / Tiles2), and a kernel's product into a zero accumulator and the host's product are the
      same sum over the contracted axis (LibMatmulSum), the bias broadcast and rectifier the same entry by entry, the
      kernel's logistic operation the host's `1 / (1 + e⁻ᵗ)` (LibDenseOps, RefDense);
    * the ids, degrees, edge weights and the propagations are the same host operations applied to the same arrays in
      both programs; they are named once (Graph) and never opened.
  No law of the extended reals beyond commutativity of a finite sum's index change is used, and the precondition
  (finite inputs) is not needed.

  The kernel's run is the generated frame's segments with the result buffer's final contents kept (KernelRun); its
  contents boundary by boundary are read in KernelStages. The reference's run is `run_seq` over its 135 operations
  (RefRun), its result read as the network in one pass (RefRead).
-/
import proofs.«171655_j62165356642602_1_alg».proof.Defs
import proofs.«171655_j62165356642602_1_alg».proof.Proof.Gen.Kernel
import proofs.«171655_j62165356642602_1_alg».proof.Proof.Gen.Kernel.Skeleton
import proofs.«171655_j62165356642602_1_alg».proof.Proof.Gen.Kernel.Launch
import proofs.«171655_j62165356642602_1_alg».proof.Proof.Gen.Kernel.Points
import proofs.«171655_j62165356642602_1_alg».proof.Proof.Gen.Kernel.Frame
import proofs.«171655_j62165356642602_1_alg».proof.Proof.Gen.KernelIdeal
import proofs.«171655_j62165356642602_1_alg».proof.Proof.Gen.KernelIdeal.Skeleton
import proofs.«171655_j62165356642602_1_alg».proof.Proof.Gen.KernelIdeal.Launch
import proofs.«171655_j62165356642602_1_alg».proof.Proof.Gen.KernelIdeal.Points
import proofs.«171655_j62165356642602_1_alg».proof.Proof.Gen.KernelIdeal.Frame
import proofs.«171655_j62165356642602_1_alg».proof.Proof.Gen.ReferenceIdeal
import proofs.«171655_j62165356642602_1_alg».proof.Proof.Gen.Pre_finite_inputs
import proofs.«171655_j62165356642602_1_alg».proof.Proof.KernelRun
import proofs.«171655_j62165356642602_1_alg».proof.Proof.KernelStages
import proofs.«171655_j62165356642602_1_alg».proof.Proof.RefRead
import proofs.«171655_j62165356642602_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- The ideal pass rewrote no operation of the kernel program: nothing to preserve. -/
theorem preserves : Cert.preserves_Kernel_KernelIdeal := trivial

/-- Both idealized programs end with the network's value of their (agreeing) arguments in the result buffer. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun _ h c => ⟨(h c).1.trans (Cert.KernelIdeal.Whole.at9_v59 m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Stages.run (F := Ideal) m' ρ')
    obtain ⟨a0, a1, a2, a3, a4, a5, a6, a7⟩ := hagree c
    rw [a0, a1, a2, a3, a4, a5, a6, a7]
    unfold Cert.KernelIdeal.Whole.result
    exact Cert.Gcn.network_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
